-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x50000 : Shape := ⟨3, ![4, 64, 50000]⟩
abbrev S800000 : Shape := ⟨1, ![800000]⟩
abbrev S4x64x128 : Shape := ⟨3, ![4, 64, 128]⟩
abbrev S128 : Shape := ⟨1, ![128]⟩
abbrev S_ : Shape := ⟨0, ![]⟩

class Facts : Prop where
  bcast_S_S4x64x50000 : S_.BroadcastsInDim S4x64x50000 (![] : Fin 0 → Fin S4x64x50000.rank)
  reducesTo_S4x64x50000_S_d0_1_2 : S4x64x50000.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x64x50000 .f32) (main_arg1 : IVec S800000 32) (main_arg2 : IVec S800000 32) (main_arg3 : FVec F S800000 .f32) (main_arg4 : FVec F S4x64x128 .f32) (main_arg5 : FVec F S128 .f32) : IVec S_ 1 :=
  let main_v0 : FVec F S4x64x50000 .f32 := Host.absf main_arg0
  let main_cst : FVec F S_ .f32 := constant S_ .f32 0x7F800000#32
  let main_v1 : FVec F S4x64x50000 .f32 := broadcastInDim S4x64x50000 ![] bcast_S_S4x64x50000 main_cst
  let main_v2 : IVec S4x64x50000 1 := cmpf .olt main_v0 main_v1
  let main_c : IVec S_ 1 := constantI S_ 1 1#1
  let main_v3 : IVec S_ 1 := (fun x v => Host.reduce IntOp.andi x v reducesTo_S4x64x50000_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S4x64x128 .f32 := Host.absf main_arg4
  let main_cst_2 : FVec F S_ .f32 := constant S_ .f32 0x7F800000#32
  let main_v10 : FVec F S4x64x128 .f32 := broadcastInDim S4x64x128 ![] bcast_S_S4x64x128 main_cst_2
  let main_v11 : IVec S4x64x128 1 := cmpf .olt main_v9 main_v10
  let main_c_3 : IVec S_ 1 := constantI S_ 1 1#1
  let main_v12 : IVec S_ 1 := (fun x v => Host.reduce IntOp.andi x v reducesTo_S4x64x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x64x50000 : Shape := ⟨3, ![4, 64, 50000]⟩
abbrev S800000 : Shape := ⟨1, ![800000]⟩
abbrev S4x64x128 : Shape := ⟨3, ![4, 64, 128]⟩
abbrev S128 : Shape := ⟨1, ![128]⟩
abbrev S50000x4x64 : Shape := ⟨3, ![50000, 4, 64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x50000x256 : Shape := ⟨3, ![1, 50000, 256]⟩
abbrev S4x50000x256 : Shape := ⟨3, ![4, 50000, 256]⟩
abbrev S4x200000x64 : Shape := ⟨3, ![4, 200000, 64]⟩
abbrev S1x128 : Shape := ⟨2, ![1, 128]⟩
abbrev S200000x128 : Shape := ⟨2, ![200000, 128]⟩
abbrev S4x8000x64 : Shape := ⟨3, ![4, 8000, 64]⟩
abbrev S8000x128 : Shape := ⟨2, ![8000, 128]⟩
abbrev S1x8000x64 : Shape := ⟨3, ![1, 8000, 64]⟩
abbrev S8000x64 : Shape := ⟨2, ![8000, 64]⟩
abbrev S1x64x128 : Shape := ⟨3, ![1, 64, 128]⟩
abbrev S64x128 : Shape := ⟨2, ![64, 128]⟩
abbrev S50000x4x128 : Shape := ⟨3, ![50000, 4, 128]⟩
abbrev S4x128x50000 : Shape := ⟨3, ![4, 128, 50000]⟩

abbrev nBuf : Space → Nat
  | .hbm => 74
  | .vmem => 6
  | .smem => 0
  | _ => 0

abbrev bufTy : (tb : Table) → Fin (tcTables nBuf tb) → BufTy
  | .hbm, ⟨0, _⟩ => ⟨S4x64x50000, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S4x64x128, .f32⟩
  | .hbm, ⟨5, _⟩ => ⟨S128, .f32⟩
  | .hbm, ⟨6, _⟩ => ⟨S50000x4x64, .f32⟩
  | .hbm, ⟨7, _⟩ => ⟨S50000x256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S800000x256, .f32⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S1x50000x256, .f32⟩
  | .hbm, ⟨65, _⟩ => ⟨S1x50000x256, .f32⟩
  | .hbm, ⟨66, _⟩ => ⟨S1x50000x256, .f32⟩
  | .hbm, ⟨67, _⟩ => ⟨S1x50000x256, .f32⟩
  | .hbm, ⟨68, _⟩ => ⟨S4x50000x256, .f32⟩
  | .hbm, ⟨69, _⟩ => ⟨S4x200000x64, .f32⟩
  | .hbm, ⟨70, _⟩ => ⟨S1x128, .f32⟩
  | .hbm, ⟨71, _⟩ => ⟨S200000x128, .f32⟩
  | .hbm, ⟨72, _⟩ => ⟨S50000x4x128, .f32⟩
  | .hbm, ⟨73, _⟩ => ⟨S4x128x50000, .f32⟩
  | .local _ .vmem, ⟨0, _⟩ => ⟨S4x8000x64, .f32⟩
  | .local _ .vmem, ⟨1, _⟩ => ⟨S4x8000x64, .f32⟩
  | .local _ .vmem, ⟨2, _⟩ => ⟨S4x64x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | _, _ => ⟨S4x64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x64x50000_S50000x4x64_2_0_1 : S4x64x50000.Transposes [2, 0, 1] S50000x4x64
  shapeCasts_S50000x4x64_S50000x256 : S50000x4x64.ShapeCasts S50000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x256_S1x50000x256_1_2 : S50000x256.BroadcastsInDim S1x50000x256 (![1, 2] : Fin 2 → Fin S1x50000x256.rank)
  concatenates_S1x50000x256_S1x50000x256_S1x50000x256_S1x50000x256_S4x50000x256_d0 : Shape.Concatenates [S1x50000x256, S1x50000x256, S1x50000x256, S1x50000x256] S4x50000x256 0
  shapeCasts_S4x50000x256_S4x200000x64 : S4x50000x256.ShapeCasts S4x200000x64
  shapeCasts_S128_S1x128 : S128.ShapeCasts S1x128
  inb_S4x8000x64_S1x8000x64_0_0_0 : ∀ a, (![0, 0, 0] : Fin 3 → Nat) a + S1x8000x64.size a ≤ S4x8000x64.size a
  h_S1x8000x64 : 0 < S1x8000x64.numel
  shapeCasts_S1x8000x64_S8000x64 : S1x8000x64.ShapeCasts S8000x64
  bitsLt_bf16_f32 : FTy.bits .bf16 < FTy.bits .f32
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x8000x64_S1x8000x64_1_0_0 : ∀ a, (![1, 0, 0] : Fin 3 → Nat) a + S1x8000x64.size a ≤ S4x8000x64.size a
  inb_S4x64x128_S1x64x128_1_0_0 : ∀ a, (![1, 0, 0] : Fin 3 → Nat) a + S1x64x128.size a ≤ S4x64x128.size a
  inb_S4x8000x64_S1x8000x64_2_0_0 : ∀ a, (![2, 0, 0] : Fin 3 → Nat) a + S1x8000x64.size a ≤ S4x8000x64.size a
  inb_S4x64x128_S1x64x128_2_0_0 : ∀ a, (![2, 0, 0] : Fin 3 → Nat) a + S1x64x128.size a ≤ S4x64x128.size a
  inb_S4x8000x64_S1x8000x64_3_0_0 : ∀ a, (![3, 0, 0] : Fin 3 → Nat) a + S1x8000x64.size a ≤ S4x8000x64.size a
  inb_S4x64x128_S1x64x128_3_0_0 : ∀ a, (![3, 0, 0] : Fin 3 → Nat) a + S1x64x128.size a ≤ S4x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S200000x128_S50000x4x128 : S200000x128.ShapeCasts S50000x4x128
  transposes_S50000x4x128_S4x128x50000_1_2_0 : S50000x4x128.Transposes [1, 2, 0] S4x128x50000
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S8000x64_S64x128_S8000x128_1_0_0_1_n_n_wf : DotDims.WF S8000x64 S64x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8000x64.size a ≤ S4x200000x64.size a
  hwx0_0 : ∀ i : grid0.Coords, EltTy.bits .f32 = 32 ∨ (Rect.block (s := S4x200000x64) S4x8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x128.size a ≤ S4x64x128.size a
  hwx0_1 : ∀ i : grid0.Coords, EltTy.bits .f32 = 32 ∨ (Rect.block (s := S4x64x128) S4x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S200000x128.size a
  hwx0_3 : ∀ i : grid0.Coords, EltTy.bits .f32 = 32 ∨ (Rect.block (s := S200000x128) S8000x128.size (cc0_transform_3 i) (hinb0_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf

abbrev win0_0 : Pipeline.Window sig grid0 :=
  Pipeline.Window.ofSpec (Memref.whole main_v52) S4x8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x50000 : Shape := ⟨3, ![4, 64, 50000]⟩
abbrev S800000 : Shape := ⟨1, ![800000]⟩
abbrev S4x64x128 : Shape := ⟨3, ![4, 64, 128]⟩
abbrev S128 : Shape := ⟨1, ![128]⟩
abbrev S50000x4x64 : Shape := ⟨3, ![50000, 4, 64]⟩
abbrev S50000x256 : Shape := ⟨2, ![50000, 256]⟩
abbrev S1x64x128 : Shape := ⟨3, ![1, 64, 128]⟩
abbrev S64x128 : Shape := ⟨2, ![64, 128]⟩
abbrev S50000x4x128 : Shape := ⟨3, ![50000, 4, 128]⟩
abbrev S800000x1 : Shape := ⟨2, ![800000, 1]⟩
abbrev S_ : Shape := ⟨0, ![]⟩
abbrev S800000x256 : Shape := ⟨2, ![800000, 256]⟩
abbrev S1x1x128 : Shape := ⟨3, ![1, 1, 128]⟩
abbrev S4x128x50000 : Shape := ⟨3, ![4, 128, 50000]⟩

abbrev nBuf : Space → Nat
  | .hbm => 87
  | .vmem => 0
  | .smem => 0
  | _ => 0

abbrev bufTy : (tb : Table) → Fin (tcTables nBuf tb) → BufTy
  | .hbm, ⟨0, _⟩ => ⟨S4x64x50000, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S4x64x128, .f32⟩
  | .hbm, ⟨5, _⟩ => ⟨S128, .f32⟩
  | .hbm, ⟨6, _⟩ => ⟨S50000x4x64, .f32⟩
  | .hbm, ⟨7, _⟩ => ⟨S50000x256, .f32⟩
  | .hbm, ⟨8, _⟩ => ⟨S1x64x128, .f32⟩
  | .hbm, ⟨9, _⟩ => ⟨S64x128, .f32⟩
  | .hbm, ⟨10, _⟩ => ⟨S50000x4x64, .f32⟩
  | .hbm, ⟨11, _⟩ => ⟨S50000x4x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x64x128, .f32⟩
  | .hbm, ⟨29, _⟩ => ⟨S64x128, .f32⟩
  | .hbm, ⟨30, _⟩ => ⟨S50000x4x64, .f32⟩
  | .hbm, ⟨31, _⟩ => ⟨S50000x4x128, .f32⟩
  | .hbm, ⟨32, _⟩ => ⟨S50000x4x128, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S800000x256, .f32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S1x64x128, .f32⟩
  | .hbm, ⟨54, _⟩ => ⟨S64x128, .f32⟩
  | .hbm, ⟨55, _⟩ => ⟨S50000x4x64, .f32⟩
  | .hbm, ⟨56, _⟩ => ⟨S50000x4x128, .f32⟩
  | .hbm, ⟨57, _⟩ => ⟨S50000x4x128, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S800000x256, .f32⟩
  | .hbm, ⟨69, _⟩ => ⟨S800000x256, .f32⟩
  | .hbm, ⟨70, _⟩ => ⟨S_, .f32⟩
  | .hbm, ⟨71, _⟩ => ⟨S50000x256, .f32⟩
  | .hbm, ⟨72, _⟩ => ⟨S800000x1, .i32⟩
  | .hbm, ⟨73, _⟩ => ⟨S50000x256, .f32⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x64x128, .f32⟩
  | .hbm, ⟨79, _⟩ => ⟨S64x128, .f32⟩
  | .hbm, ⟨80, _⟩ => ⟨S50000x4x64, .f32⟩
  | .hbm, ⟨81, _⟩ => ⟨S50000x4x128, .f32⟩
  | .hbm, ⟨82, _⟩ => ⟨S50000x4x128, .f32⟩
  | .hbm, ⟨83, _⟩ => ⟨S1x1x128, .f32⟩
  | .hbm, ⟨84, _⟩ => ⟨S50000x4x128, .f32⟩
  | .hbm, ⟨85, _⟩ => ⟨S50000x4x128, .f32⟩
  | .hbm, ⟨86, _⟩ => ⟨S4x128x50000, .f32⟩
  | _, _ => ⟨S4x64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]

class Facts₀ : Prop where
  transposes_S4x64x50000_S50000x4x64_2_0_1 : S4x64x50000.Transposes [2, 0, 1] S50000x4x64
  shapeCasts_S50000x4x64_S50000x256 : S50000x4x64.ShapeCasts S50000x256
  slices_S4x64x128_S1x64x128_0_0_0 : S4x64x128.Slices ![0, 0, 0] S1x64x128
  shapeCasts_S1x64x128_S64x128 : S1x64x128.ShapeCasts S64x128
  shapeCasts_S50000x256_S50000x4x64 : S50000x256.ShapeCasts S50000x4x64
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S4x64x128_S1x64x128_1_0_0 : S4x64x128.Slices ![1, 0, 0] S1x64x128
  slices_S4x64x128_S1x64x128_2_0_0 : S4x64x128.Slices ![2, 0, 0] S1x64x128
  slices_S4x64x128_S1x64x128_3_0_0 : S4x64x128.Slices ![3, 0, 0] S1x64x128
  bcast_S128_S1x1x128_2 : S128.BroadcastsInDim S1x1x128 (![2] : Fin 1 → Fin S1x1x128.rank)
  bcast_S1x1x128_S50000x4x128_0_1_2 : S1x1x128.BroadcastsInDim S50000x4x128 (![0, 1, 2] : Fin 3 → Fin S50000x4x128.rank)
  transposes_S50000x4x128_S4x128x50000_1_2_0 : S50000x4x128.Transposes [1, 2, 0] S4x128x50000
  dot_S50000x4x64_S64x128_S50000x4x128_2_0_01_1_n_n_wf : DotDims.WF S50000x4x64 S64x128 S50000x4x128 [2] [0] [0, 1] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x4x64_S64x128_S50000x4x128_2_0_01_1_n_n : DotDims S50000x4x64 S64x128 S50000x4x128 where
  lhsContracting := [2]
  rhsContracting := [0]
  lhsNonContracting := [0, 1]
  rhsNonContracting := [1]
  lhsBatch := []
  rhsBatch := []
  wf := dot_S50000x4x64_S64x128_S50000x4x128_2_0_01_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KWordAround.lean ====
/-
  The kernel's @main, read at the machine's words, is three stretches: sixty-five host operations that build the four Chebyshev
  states of the input (x₀ = the input re-laid as vertices × (batch·channels), x₁ = L·x₀, x₂ = 2·L·x₁ − x₀,
  x₃ = 2·L·x₂ − x₁, where L·z gathers rows of z by the column indices, scales them by the edge values and
  adds them into the rows named by the row indices), stacks them and re-lays the stack as 4 × 200000 × 64;
  one call of the contraction kernel over twenty-five blocks of 8000 rows; and two host operations that re-lay
  the 200000 × 128 result as batch × out-channels × vertices.

  This module states what the region finds in every buffer (the host operations before it, folded over the
  launch contents), that @main is those three stretches, that the two operations after the region touch only
  their own results, and that each of the six argument arrays is what it was at launch both when the region is
  entered and after the last operation. From these the frame claim follows from any run of the region that
  leaves the staged arrays as the pipeline library computes them.
-/
import proofs.«136015_j54451595379259_1_alg».proof.Proof.Gen.Kernel.Launch
import proofs.«136015_j54451595379259_1_alg».proof.Proof.Gen.Kernel.Skeleton
import proofs.«136015_j54451595379259_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every buffer of core `c` when the region is entered: the launch contents after the host operations that
    come before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- None of the operations before the region allocates. -/
theorem hostOps0_fresh : (hostOps0 : List (HloOp τ sig (Elt F))).Forall fun op => op.fresh = ∅ := by
  simp only [List.Forall]; repeat' constructor

/-- Nor does either operation after it. -/
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The two operations after the region -/

/-- They touch unscoped buffers of the core only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each writes its own result only, and neither result is an array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The argument arrays when the region is entered -/

theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results_simp
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results_simp
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]
  after_results_simp
theorem V_main_arg3 (c : Dev nD) : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil]
  after_results_simp
theorem V_main_arg4 (c : Dev nD) : V m c main_arg4 = m ((c : Thread nD τ).loc main_arg4) := by
  show StableHlo.after (List.flatten [hostOps0]) (fun b => m (c, b)) (Proc.devRef .tc main_arg4) = _
  simp only [hostOps0, List.flatten_cons, List.flatten_nil, List.append_nil]
  after_results_simp
theorem V_main_arg5 (c : Dev nD) : V m c main_arg5 = m ((c : Thread nD τ).loc main_arg5) := by
  show StableHlo.after (List.flatten [hostOps0]) (fun b => m (c, b)) (Proc.devRef .tc main_arg5) = _
  simp only [hostOps0, List.flatten_cons, List.flatten_nil, List.append_nil]
  after_results_simp

/-! ## The windows' blocks -/

/-- Window `w`'s block at grid point `t`: the part of its array, as the region finds it, that the point's index
    map selects — rows 8000·t … 8000·t + 7999 of each of the four states for window 0, the whole weight for
    window 1, the bias row for window 2. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the point fetched it or
    not (the weight and the bias are fetched once: their index never moves), provided the body leaves the block in
    place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the last operation -/

/-- The two operations after the region write only their own results, and no window stages this argument, so it
    still holds its launch contents. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  show StableHlo.after (List.flatten [hostOps1]) _ (Proc.devRef .tc main_arg0) = _
  simp only [hostOps1, List.flatten_cons, List.flatten_nil, List.append_nil]
  after_results
  rw [Pipeline.withArrays_of_ne _ c _ _ main_arg0 (by decide)]
  exact V_main_arg0 m c
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  show StableHlo.after (List.flatten [hostOps1]) _ (Proc.devRef .tc main_arg1) = _
  simp only [hostOps1, List.flatten_cons, List.flatten_nil, List.append_nil]
  after_results
  rw [Pipeline.withArrays_of_ne _ c _ _ main_arg1 (by decide)]
  exact V_main_arg1 m c
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  show StableHlo.after (List.flatten [hostOps1]) _ (Proc.devRef .tc main_arg2) = _
  simp only [hostOps1, List.flatten_cons, List.flatten_nil, List.append_nil]
  after_results
  rw [Pipeline.withArrays_of_ne _ c _ _ main_arg2 (by decide)]
  exact V_main_arg2 m c
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  show StableHlo.after (List.flatten [hostOps1]) _ (Proc.devRef .tc main_arg3) = _
  simp only [hostOps1, List.flatten_cons, List.flatten_nil, List.append_nil]
  after_results
  rw [Pipeline.withArrays_of_ne _ c _ _ main_arg3 (by decide)]
  exact V_main_arg3 m c
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  show StableHlo.after (List.flatten [hostOps1]) _ (Proc.devRef .tc main_arg5) = _
  simp only [hostOps1, List.flatten_cons, List.flatten_nil, List.append_nil]
  after_results
  rw [Pipeline.withArrays_of_ne _ c _ _ main_arg5 (by decide)]
  exact V_main_arg5 m c

/-! ## The frame from a run of the region -/

/-- If the region runs to the pipeline library's post — every staged array as the library computes it from the
    proof data, every other unscoped buffer as the operations after the region leave it — then every argument array
    ends at its launch contents: the weight is a staged INPUT (never written back), the other five are staged by
    no window and written by no operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).1 1).trans (((dats 0 c).arrAt_in 1 rfl _).trans ((hA c 1).trans (V_main_arg4 m c))),
      ((h c).2 main_arg5 (Pipeline.mem_restRefs_of main_arg5 (by decide) (by decide))).trans (tail_main_arg5 m dats c)⟩) h

end Cert.Kernel.Around

end
-- ==== Proof.KWordBody.lean ====
/-
  The contraction kernel at one grid point. Its body reads the four 8000 × 64 slabs of the point's block of the
  stacked Chebyshev states and the four 64 × 128 slabs of the weight, multiplies slab k by weight slab k, adds the
  four products one after the other onto a zero block, adds the bias row to every row, and stores the 8000 × 128
  result over the whole output block (it also reads the output block once and discards what it read). So after the
  body the output block is ONE function of the three input blocks — the payload terms the body's skeleton names,
  composed — and the input blocks are untouched.

  With that as the proof data of the pipeline library (each input window's buffer at its block, the output
  window's at that function of the input blocks, nothing else owned), the body's triple at every point is the
  library's obligation, the library's launch theorem runs @main, and the frame follows.
-/
import proofs.«136015_j54451595379259_1_alg».proof.Proof.KWordAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- Slab `k` of the states' block: all 8000 rows and 64 channels of state `k`. -/
abbrev zSlab0 : Rect S4x8000x64 := Rect.unit (s := S4x8000x64) ![0, 0, 0] S1x8000x64.size inb_S4x8000x64_S1x8000x64_0_0_0
abbrev zSlab1 : Rect S4x8000x64 := Rect.unit (s := S4x8000x64) ![1, 0, 0] S1x8000x64.size inb_S4x8000x64_S1x8000x64_1_0_0
abbrev zSlab2 : Rect S4x8000x64 := Rect.unit (s := S4x8000x64) ![2, 0, 0] S1x8000x64.size inb_S4x8000x64_S1x8000x64_2_0_0
abbrev zSlab3 : Rect S4x8000x64 := Rect.unit (s := S4x8000x64) ![3, 0, 0] S1x8000x64.size inb_S4x8000x64_S1x8000x64_3_0_0
/-- Slab `k` of the weight: the 64 × 128 matrix of Chebyshev order `k`. -/
abbrev wSlab0 : Rect S4x64x128 := Rect.unit (s := S4x64x128) ![0, 0, 0] S1x64x128.size inb_S4x64x128_S1x64x128_0_0_0
abbrev wSlab1 : Rect S4x64x128 := Rect.unit (s := S4x64x128) ![1, 0, 0] S1x64x128.size inb_S4x64x128_S1x64x128_1_0_0
abbrev wSlab2 : Rect S4x64x128 := Rect.unit (s := S4x64x128) ![2, 0, 0] S1x64x128.size inb_S4x64x128_S1x64x128_2_0_0
abbrev wSlab3 : Rect S4x64x128 := Rect.unit (s := S4x64x128) ![3, 0, 0] S1x64x128.size inb_S4x64x128_S1x64x128_3_0_0
/-- The bias row, whole. -/
abbrev biasRow : Rect S1x128 := Rect.unit (s := S1x128) ![0, 0] S1x128.size inb_S1x128_S1x128_0_0
/-- The output block, whole. -/
abbrev outAll : Rect S8000x128 := Rect.unit (s := S8000x128) ![0, 0] S8000x128.size inb_S8000x128_S8000x128_0_0

/-! ## What the body leaves in the output block -/

/-- The output block after the body, from the three input blocks: the sum of the first three slab products on a
    zero block (`k0_pay2`), plus the fourth (`k0_pay3`, `k0_pay4` its two factors), plus the bias row on every row
    (`k0_pay1`), stored over the whole block. -/
def blockOut (z : Vec F S4x8000x64 .f32) (w : Vec F S4x64x128 .f32) (b : Vec F S1x128 .f32) : Vec F S8000x128 .f32 :=
  View.canon [⟨outAll, k0_pay1
    (k0_pay2 (View.ld z zSlab0) (View.ld w wSlab0) (View.ld z zSlab1) (View.ld w wSlab1) (View.ld z zSlab2) (View.ld w wSlab2))
    (k0_pay3 (View.ld z zSlab3)) (k0_pay4 (View.ld w wSlab3)) (View.ld b biasRow)⟩]

/-- The one store covers the block. -/
theorem outAll_covers (p0 : Vec F S8000x128 .f32) (y : S8000x128.Idx) :
    ∃ pc ∈ ([⟨outAll, p0⟩] : List (View.Piece (Elt F) S8000x128 .f32)), y ∈ pc.1.set :=
  View.cover_of_tiled [⟨outAll, p0⟩] S8000x128.size (by rfl) y

/-! ## The body's triple -/

set_option maxHeartbeats 2000000 in
/-- On whole staging buffers holding `z`, `w`, `b` and anything in the output's, the body runs to its end without a
    fault, leaves the three inputs as they were and the output's at `blockOut z w b`. -/
theorem sound_kernel (c : Dev nD) (E : Set ℕ) (i : grid0.Coords)
    (arg1 : Memref sig .tc .vmem S4x8000x64 .f32) (harg1 : arg1.IsWhole) (arg2 : Memref sig .tc .vmem S4x64x128 .f32) (harg2 : arg2.IsWhole)
    (arg3 : Memref sig .tc .vmem S1x128 .f32) (harg3 : arg3.IsWhole) (arg4 : Memref sig .tc .vmem S8000x128 .f32) (harg4 : arg4.IsWhole)
    (z : Vec F S4x8000x64 .f32) (w : Vec F S4x64x128 .f32) (b : Vec F S1x128 .f32) (K : PUnit → sProp 𝕄) :
    iprop(owns (c : Thread nD τ) arg1 fullShare z ∗ owns (c : Thread nD τ) arg2 fullShare w ∗ owns (c : Thread nD τ) arg3 fullShare b
        ∗ (∃ d, owns (c : Thread nD τ) arg4 fullShare d)
        ∗ (iprop(owns (c : Thread nD τ) arg1 fullShare z ∗ owns (c : Thread nD τ) arg2 fullShare w ∗ owns (c : Thread nD τ) arg3 fullShare b
            ∗ owns (c : Thread nD τ) arg4 fullShare (blockOut z w b)) -∗ K ⟨⟩))
      ⊢ wp frame (wpE (defs₀ (F := F)) Variants.none c none) E (cc0__cheb_contract_kernel i arg1 harg1 arg2 harg2 arg3 harg3 arg4 harg4) K := by
  simp only [cc0__cheb_contract_kernel_eq_skeleton]; unfold cc0__cheb_contract_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outAll_covers _)

/-! ## The proof data -/

/-- The pipeline's proof data on core `c`: the arrays as the region finds them; after the body at point `t` each
    input window's buffer at the window's block and the output's at `blockOut` of the three blocks; nothing owned
    beyond what the launch hands over; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = blockOut (iblk m c 0 t) (iblk m c 1 t) (iblk m c 2 t) := by dsimp only [dats]

/-- Each input window's buffer holds its block when the body is called. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so `sound_kernel` applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault; at the
    end every staged array is what the library computes from the proof data — the output array its region-entry
    contents overwritten block by block with `blockOut` — and every other unscoped buffer is as the two operations
    after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Around

end
-- ==== Proof.KIdealAround.lean ====
/-
  The idealized kernel's @main is three stretches: sixty-five host operations that build the four Chebyshev
  states of the input (x₀ = the input re-laid as vertices × (batch·channels), x₁ = L·x₀, x₂ = 2·L·x₁ − x₀,
  x₃ = 2·L·x₂ − x₁, where L·z gathers rows of z by the column indices, scales them by the edge values and
  adds them into the rows named by the row indices), stacks them and re-lays the stack as 4 × 200000 × 64;
  one call of the contraction kernel over twenty-five blocks of 8000 rows; and two host operations that re-lay
  the 200000 × 128 result as batch × out-channels × vertices.

  This module states what the region finds in every buffer (the host operations before it, folded over the
  launch contents), that @main is those three stretches, that the two operations after the region touch only
  their own results, and that each of the six argument arrays is what it was at launch both when the region is
  entered and after the last operation. From these the frame claim follows from any run of the region that
  leaves the staged arrays as the pipeline library computes them.
-/
import proofs.«136015_j54451595379259_1_alg».proof.Proof.Gen.KernelIdeal.Launch
import proofs.«136015_j54451595379259_1_alg».proof.Proof.Gen.KernelIdeal.Skeleton
import proofs.«136015_j54451595379259_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every buffer of core `c` when the region is entered: the launch contents after the host operations that
    come before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- None of the operations before the region allocates. -/
theorem hostOps0_fresh : (hostOps0 : List (HloOp τ sig (Elt F))).Forall fun op => op.fresh = ∅ := by
  simp only [List.Forall]; repeat' constructor

/-- Nor does either operation after it. -/
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The two operations after the region -/

/-- They touch unscoped buffers of the core only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each writes its own result only, and neither result is an array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The argument arrays when the region is entered -/

theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results_simp
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results_simp
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]
  after_results_simp
theorem V_main_arg3 (c : Dev nD) : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil]
  after_results_simp
theorem V_main_arg4 (c : Dev nD) : V m c main_arg4 = m ((c : Thread nD τ).loc main_arg4) := by
  show StableHlo.after (List.flatten [hostOps0]) (fun b => m (c, b)) (Proc.devRef .tc main_arg4) = _
  simp only [hostOps0, List.flatten_cons, List.flatten_nil, List.append_nil]
  after_results_simp
theorem V_main_arg5 (c : Dev nD) : V m c main_arg5 = m ((c : Thread nD τ).loc main_arg5) := by
  show StableHlo.after (List.flatten [hostOps0]) (fun b => m (c, b)) (Proc.devRef .tc main_arg5) = _
  simp only [hostOps0, List.flatten_cons, List.flatten_nil, List.append_nil]
  after_results_simp

/-! ## The windows' blocks -/

/-- Window `w`'s block at grid point `t`: the part of its array, as the region finds it, that the point's index
    map selects — rows 8000·t … 8000·t + 7999 of each of the four states for window 0, the whole weight for
    window 1, the bias row for window 2. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the point fetched it or
    not (the weight and the bias are fetched once: their index never moves), provided the body leaves the block in
    place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the last operation -/

/-- The two operations after the region write only their own results, and no window stages this argument, so it
    still holds its launch contents. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  show StableHlo.after (List.flatten [hostOps1]) _ (Proc.devRef .tc main_arg0) = _
  simp only [hostOps1, List.flatten_cons, List.flatten_nil, List.append_nil]
  after_results
  rw [Pipeline.withArrays_of_ne _ c _ _ main_arg0 (by decide)]
  exact V_main_arg0 m c
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  show StableHlo.after (List.flatten [hostOps1]) _ (Proc.devRef .tc main_arg1) = _
  simp only [hostOps1, List.flatten_cons, List.flatten_nil, List.append_nil]
  after_results
  rw [Pipeline.withArrays_of_ne _ c _ _ main_arg1 (by decide)]
  exact V_main_arg1 m c
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  show StableHlo.after (List.flatten [hostOps1]) _ (Proc.devRef .tc main_arg2) = _
  simp only [hostOps1, List.flatten_cons, List.flatten_nil, List.append_nil]
  after_results
  rw [Pipeline.withArrays_of_ne _ c _ _ main_arg2 (by decide)]
  exact V_main_arg2 m c
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  show StableHlo.after (List.flatten [hostOps1]) _ (Proc.devRef .tc main_arg3) = _
  simp only [hostOps1, List.flatten_cons, List.flatten_nil, List.append_nil]
  after_results
  rw [Pipeline.withArrays_of_ne _ c _ _ main_arg3 (by decide)]
  exact V_main_arg3 m c
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  show StableHlo.after (List.flatten [hostOps1]) _ (Proc.devRef .tc main_arg5) = _
  simp only [hostOps1, List.flatten_cons, List.flatten_nil, List.append_nil]
  after_results
  rw [Pipeline.withArrays_of_ne _ c _ _ main_arg5 (by decide)]
  exact V_main_arg5 m c

/-! ## The frame from a run of the region -/

/-- If the region runs to the pipeline library's post — every staged array as the library computes it from the
    proof data, every other unscoped buffer as the operations after the region leave it — then every argument array
    ends at its launch contents: the weight is a staged INPUT (never written back), the other five are staged by
    no window and written by no operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).1 1).trans (((dats 0 c).arrAt_in 1 rfl _).trans ((hA c 1).trans (V_main_arg4 m c))),
      ((h c).2 main_arg5 (Pipeline.mem_restRefs_of main_arg5 (by decide) (by decide))).trans (tail_main_arg5 m dats c)⟩) h

end Cert.KernelIdeal.Around

end
-- ==== Proof.ChebSpec.lean ====
/-
  The graph convolution both programs compute, index by index.

  A STATE is a 50000 × 256 array: one row per vertex, the row holding the 4 batch entries' 64 channels one after
  the other (column b·64 + i is channel i of batch entry b). Given four states X₀ … X₃ (the Chebyshev polynomials
  of the graph operator applied to the input), a weight W of shape 4 × 64 × 128 and a bias of length 128, the
  output at vertex v, batch entry b, output channel o is

      Σᵢ X₀[v, b·64+i]·W[0,i,o] + Σᵢ X₁[v, b·64+i]·W[1,i,o] + Σᵢ X₂[…]·W[2,i,o] + Σᵢ X₃[…]·W[3,i,o] + bias[o],

  the four sums added from the left. Nothing here needs the entries to be finite: only the order of the additions
  is fixed, and both programs add in this order.
-/
import Idealize.ShloMosaic.Lib.ValueIdx
import Idealize.ShloMosaic.PureOps.Ideal.Laws

noncomputable section

open scoped BigOperators

namespace Cert.ChebSpec

open Idealize.ShloMosaic Idealize.ShloMosaic.ValueIdx

/-- Column `b·64 + i` of a state's row: channel `i` of batch entry `b`. -/
def col (b : Fin 4) (i : Fin 64) : Fin 256 := ⟨b.val * 64 + i.val, by have := b.isLt; have := i.isLt; omega⟩

theorem col_val (b : Fin 4) (i : Fin 64) : (col b i).val = b.val * 64 + i.val := rfl

/-- The order-`k` term: the state's 64 channels at (v, b) against the order-`k` weight matrix's column `o`. -/
def term (X : FVec Ideal ⟨2, ![50000, 256]⟩ .f32) (W : FVec Ideal ⟨3, ![4, 64, 128]⟩ .f32) (k : Fin 4)
    (v : Fin 50000) (b : Fin 4) (o : Fin 128) : EReal :=
  ∑ i : Fin 64, X (ix2 v (col b i)) * W (ix3 k i o)

/-- The output entry: the four terms added from the left, then the bias. -/
def out (X0 X1 X2 X3 : FVec Ideal ⟨2, ![50000, 256]⟩ .f32) (W : FVec Ideal ⟨3, ![4, 64, 128]⟩ .f32)
    (B : FVec Ideal ⟨1, ![128]⟩ .f32) (v : Fin 50000) (b : Fin 4) (o : Fin 128) : EReal :=
  (((term X0 W 0 v b o + term X1 W 1 v b o) + term X2 W 2 v b o) + term X3 W 3 v b o) + B (ix1 o)

/-- The same as an array of shape 50000 × 4 × 128. -/
def outArr (X0 X1 X2 X3 : FVec Ideal ⟨2, ![50000, 256]⟩ .f32) (W : FVec Ideal ⟨3, ![4, 64, 128]⟩ .f32)
    (B : FVec Ideal ⟨1, ![128]⟩ .f32) : FVec Ideal ⟨3, ![50000, 4, 128]⟩ .f32 :=
  fun j => out X0 X1 X2 X3 W B (j 0) (j 1) (j 2)

end Cert.ChebSpec

end
-- ==== Proof.KIdealStates.lean ====
/-
  The four Chebyshev states as the contraction kernel's region finds them.

  The host operations before the region build the states exactly as the reference does — the same gathers by the
  column indices, the same products with the edge values, the same sums into the rows the row indices name, the
  same 2·(…) − (…) recurrences — so each state is the reference's own stage function of the launch contents of the
  input, the two index arrays and the edge values. They are then stacked along a new leading axis and the stack
  4 × 50000 × 256 is re-laid as 4 × 200000 × 64: entry (k, r, i) of the re-laid stack is entry
  ((r·64 + i) / 256, (r·64 + i) % 256) of state k, that is, for r = v·4 + b, channel i of batch entry b at vertex v.
-/
import proofs.«136015_j54451595379259_1_alg».proof.Proof.KIdealAround
import proofs.«136015_j54451595379259_1_alg».proof.Proof.Gen.ReferenceIdeal.Read
import proofs.«136015_j54451595379259_1_alg».proof.Proof.ChebSpec
import Idealize.ShloMosaic.Lib.ValueLayout
import Idealize.ShloMosaic.Lib.Pipeline.Value

set_option maxRecDepth 16384

noncomputable section

namespace Cert.KernelIdeal.Around

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The read-back's rewrite loop on its own, for carrying on after the operands of the four-way stack have been
    named. -/
macro "results_more" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide))))

/-! ## The two programs name the same gathers and scatters -/

theorem gatherDims_eq : gather_S50000x256_S800000x1_S800000x256_1_0_n_n_0_1_1256 = Cert.ReferenceIdeal.gather_S50000x256_S800000x1_S800000x256_1_0_n_n_0_1_1256 := rfl
theorem scatterDims_eq : scatter_S50000x256_S800000x1_S800000x256_1_0_0_1 = Cert.ReferenceIdeal.scatter_S50000x256_S800000x1_S800000x256_1_0_0_1 := rfl

theorem vec4_0 (a b c d : Ref sig .tc) : (![a, b, c, d] : Fin 4 → Ref sig .tc) 0 = a := rfl
theorem vec4_1 (a b c d : Ref sig .tc) : (![a, b, c, d] : Fin 4 → Ref sig .tc) 1 = b := rfl
theorem vec4_2 (a b c d : Ref sig .tc) : (![a, b, c, d] : Fin 4 → Ref sig .tc) 2 = c := rfl
theorem vec4_3 (a b c d : Ref sig .tc) : (![a, b, c, d] : Fin 4 → Ref sig .tc) 3 = d := rfl

def state0 (c : Dev nD) : FVec Ideal ⟨2, ![50000, 256]⟩ .f32 := Cert.ReferenceIdeal.Read.val_main_v1 (F := Ideal) (m ((c : Thread nD τ).loc main_arg0))
def state1 (c : Dev nD) : FVec Ideal ⟨2, ![50000, 256]⟩ .f32 := Cert.ReferenceIdeal.Read.val_main_v18 (F := Ideal) (m ((c : Thread nD τ).loc main_arg0)) (m ((c : Thread nD τ).loc main_arg1)) (m ((c : Thread nD τ).loc main_arg2)) (m ((c : Thread nD τ).loc main_arg3))
def state2 (c : Dev nD) : FVec Ideal ⟨2, ![50000, 256]⟩ .f32 := Cert.ReferenceIdeal.Read.val_main_v39 (F := Ideal) (m ((c : Thread nD τ).loc main_arg0)) (m ((c : Thread nD τ).loc main_arg1)) (m ((c : Thread nD τ).loc main_arg2)) (m ((c : Thread nD τ).loc main_arg3))
def state3 (c : Dev nD) : FVec Ideal ⟨2, ![50000, 256]⟩ .f32 := Cert.ReferenceIdeal.Read.val_main_v60 (F := Ideal) (m ((c : Thread nD τ).loc main_arg0)) (m ((c : Thread nD τ).loc main_arg1)) (m ((c : Thread nD τ).loc main_arg2)) (m ((c : Thread nD τ).loc main_arg3))

/-- State `k`. -/
def state (c : Dev nD) (k : Fin 4) : FVec Ideal ⟨2, ![50000, 256]⟩ .f32 :=
  match k with
  | ⟨0, _⟩ => state0 m c
  | ⟨1, _⟩ => state1 m c
  | ⟨2, _⟩ => state2 m c
  | ⟨3, _⟩ => state3 m c

/-! ## The buffers after the first sixty host operations

The host operations before the region are sixty operations that build the four states (and give the first two
their leading unit axis) followed by five that give the other two theirs, stack the four and re-lay the stack and
the bias. -/

theorem prefix_split : List.flatten [(hostOps0 : List (HloOp τ sig (Elt Ideal)))] = main_part0_ops0 ++ main_part1_ops0 := rfl

set_option maxHeartbeats 40000000 in
/-- State 0 with its unit axis, after the first sixty operations. -/
theorem first60_v47 (c : Dev nD) : StableHlo.after main_part0_ops0 (fun b => m (c, b)) (Proc.devRef .tc main_v47) = broadcastInDim S1x50000x256 ![1, 2] bcast_S50000x256_S1x50000x256_1_2 (state0 m c) := by
  simp only [main_part0_ops0]
  after_results_simp
  simp only [state0, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_c, Cert.ReferenceIdeal.Read.val_main_v7, Cert.ReferenceIdeal.Read.val_main_v8, Cert.ReferenceIdeal.Read.val_main_c_0, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_cst, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_c_1, Cert.ReferenceIdeal.Read.val_main_v25, Cert.ReferenceIdeal.Read.val_main_v26, Cert.ReferenceIdeal.Read.val_main_c_2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_cst_3, Cert.ReferenceIdeal.Read.val_main_v34, Cert.ReferenceIdeal.Read.val_main_v35, Cert.ReferenceIdeal.Read.val_main_v36, Cert.ReferenceIdeal.Read.val_main_cst_4, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_c_5, Cert.ReferenceIdeal.Read.val_main_v46, Cert.ReferenceIdeal.Read.val_main_v47, Cert.ReferenceIdeal.Read.val_main_c_6, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_v54, Cert.ReferenceIdeal.Read.val_main_cst_7, Cert.ReferenceIdeal.Read.val_main_v55, Cert.ReferenceIdeal.Read.val_main_v56, Cert.ReferenceIdeal.Read.val_main_v57, Cert.ReferenceIdeal.Read.val_main_cst_8, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, gatherDims_eq, scatterDims_eq]
  rfl
set_option maxHeartbeats 40000000 in
/-- State 1 with its unit axis. -/
theorem first60_v48 (c : Dev nD) : StableHlo.after main_part0_ops0 (fun b => m (c, b)) (Proc.devRef .tc main_v48) = broadcastInDim S1x50000x256 ![1, 2] bcast_S50000x256_S1x50000x256_1_2 (state1 m c) := by
  simp only [main_part0_ops0]
  after_results_simp
  simp only [state1, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_c, Cert.ReferenceIdeal.Read.val_main_v7, Cert.ReferenceIdeal.Read.val_main_v8, Cert.ReferenceIdeal.Read.val_main_c_0, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_cst, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_c_1, Cert.ReferenceIdeal.Read.val_main_v25, Cert.ReferenceIdeal.Read.val_main_v26, Cert.ReferenceIdeal.Read.val_main_c_2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_cst_3, Cert.ReferenceIdeal.Read.val_main_v34, Cert.ReferenceIdeal.Read.val_main_v35, Cert.ReferenceIdeal.Read.val_main_v36, Cert.ReferenceIdeal.Read.val_main_cst_4, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_c_5, Cert.ReferenceIdeal.Read.val_main_v46, Cert.ReferenceIdeal.Read.val_main_v47, Cert.ReferenceIdeal.Read.val_main_c_6, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_v54, Cert.ReferenceIdeal.Read.val_main_cst_7, Cert.ReferenceIdeal.Read.val_main_v55, Cert.ReferenceIdeal.Read.val_main_v56, Cert.ReferenceIdeal.Read.val_main_v57, Cert.ReferenceIdeal.Read.val_main_cst_8, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, gatherDims_eq, scatterDims_eq]
  rfl
set_option maxHeartbeats 40000000 in
/-- State 2. -/
theorem first60_v30 (c : Dev nD) : StableHlo.after main_part0_ops0 (fun b => m (c, b)) (Proc.devRef .tc main_v30) = state2 m c := by
  simp only [main_part0_ops0]
  after_results_simp
  simp only [state2, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_c, Cert.ReferenceIdeal.Read.val_main_v7, Cert.ReferenceIdeal.Read.val_main_v8, Cert.ReferenceIdeal.Read.val_main_c_0, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_cst, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_c_1, Cert.ReferenceIdeal.Read.val_main_v25, Cert.ReferenceIdeal.Read.val_main_v26, Cert.ReferenceIdeal.Read.val_main_c_2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_cst_3, Cert.ReferenceIdeal.Read.val_main_v34, Cert.ReferenceIdeal.Read.val_main_v35, Cert.ReferenceIdeal.Read.val_main_v36, Cert.ReferenceIdeal.Read.val_main_cst_4, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_c_5, Cert.ReferenceIdeal.Read.val_main_v46, Cert.ReferenceIdeal.Read.val_main_v47, Cert.ReferenceIdeal.Read.val_main_c_6, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_v54, Cert.ReferenceIdeal.Read.val_main_cst_7, Cert.ReferenceIdeal.Read.val_main_v55, Cert.ReferenceIdeal.Read.val_main_v56, Cert.ReferenceIdeal.Read.val_main_v57, Cert.ReferenceIdeal.Read.val_main_cst_8, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, gatherDims_eq, scatterDims_eq]
  rfl
set_option maxHeartbeats 40000000 in
/-- State 3. -/
theorem first60_v46 (c : Dev nD) : StableHlo.after main_part0_ops0 (fun b => m (c, b)) (Proc.devRef .tc main_v46) = state3 m c := by
  simp only [main_part0_ops0]
  after_results_simp
  simp only [state3, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_c, Cert.ReferenceIdeal.Read.val_main_v7, Cert.ReferenceIdeal.Read.val_main_v8, Cert.ReferenceIdeal.Read.val_main_c_0, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_cst, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_c_1, Cert.ReferenceIdeal.Read.val_main_v25, Cert.ReferenceIdeal.Read.val_main_v26, Cert.ReferenceIdeal.Read.val_main_c_2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_cst_3, Cert.ReferenceIdeal.Read.val_main_v34, Cert.ReferenceIdeal.Read.val_main_v35, Cert.ReferenceIdeal.Read.val_main_v36, Cert.ReferenceIdeal.Read.val_main_cst_4, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_c_5, Cert.ReferenceIdeal.Read.val_main_v46, Cert.ReferenceIdeal.Read.val_main_v47, Cert.ReferenceIdeal.Read.val_main_c_6, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_v54, Cert.ReferenceIdeal.Read.val_main_cst_7, Cert.ReferenceIdeal.Read.val_main_v55, Cert.ReferenceIdeal.Read.val_main_v56, Cert.ReferenceIdeal.Read.val_main_v57, Cert.ReferenceIdeal.Read.val_main_cst_8, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, gatherDims_eq, scatterDims_eq]
  rfl

/-! ## What the region finds -/

set_option maxHeartbeats 40000000 in
/-- In the buffer its first window stages: the stack of the four states, re-laid. -/
theorem V_stack (c : Dev nD) :
    V m c main_v52 = shapeCast S4x200000x64 (concatenate S4x50000x256 0
      [⟨S1x50000x256, broadcastInDim S1x50000x256 ![1, 2] bcast_S50000x256_S1x50000x256_1_2 (state0 m c)⟩,
       ⟨S1x50000x256, broadcastInDim S1x50000x256 ![1, 2] bcast_S50000x256_S1x50000x256_1_2 (state1 m c)⟩,
       ⟨S1x50000x256, broadcastInDim S1x50000x256 ![1, 2] bcast_S50000x256_S1x50000x256_1_2 (state2 m c)⟩,
       ⟨S1x50000x256, broadcastInDim S1x50000x256 ![1, 2] bcast_S50000x256_S1x50000x256_1_2 (state3 m c)⟩]
      concatenates_S1x50000x256_S1x50000x256_S1x50000x256_S1x50000x256_S4x50000x256_d0) shapeCasts_S4x50000x256_S4x200000x64 := by
  show StableHlo.after (List.flatten [hostOps0]) (fun b => m (c, b)) (Proc.devRef .tc main_v52) = _
  rw [prefix_split, StableHlo.after_append]
  have e47 := first60_v47 m c
  have e48 := first60_v48 m c
  have e30 := first60_v30 m c
  have e46 := first60_v46 m c
  generalize StableHlo.after main_part0_ops0 (fun b => m (c, b)) = W at e47 e48 e30 e46 ⊢
  simp only [main_part1_ops0]
  after_results
  simp only [vec4_0, vec4_1, vec4_2, vec4_3]
  results_more
  rw [e47, e48, e30, e46]
  rfl

/-- And in the buffer its third window stages: the bias as one row. -/
theorem V_biasRow (c : Dev nD) :
    V m c main_v53 = shapeCast S1x128 (m ((c : Thread nD τ).loc main_arg5)) shapeCasts_S128_S1x128 := by
  show StableHlo.after (List.flatten [hostOps0]) (fun b => m (c, b)) (Proc.devRef .tc main_v53) = _
  simp only [hostOps0, List.flatten_cons, List.flatten_nil, List.append_nil]
  after_results_simp
  rfl

end Cert.KernelIdeal.Around

end
-- ==== Proof.KIdealBody.lean ====
/-
  The contraction kernel at one grid point. Its body reads the four 8000 × 64 slabs of the point's block of the
  stacked Chebyshev states and the four 64 × 128 slabs of the weight, multiplies slab k by weight slab k, adds the
  four products one after the other onto a zero block, adds the bias row to every row, and stores the 8000 × 128
  result over the whole output block (it also reads the output block once and discards what it read). So after the
  body the output block is ONE function of the three input blocks — the payload terms the body's skeleton names,
  composed — and the input blocks are untouched.

  With that as the proof data of the pipeline library (each input window's buffer at its block, the output
  window's at that function of the input blocks, nothing else owned), the body's triple at every point is the
  library's obligation, the library's launch theorem runs @main, and the frame follows.
-/
import proofs.«136015_j54451595379259_1_alg».proof.Proof.KIdealAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- Slab `k` of the states' block: all 8000 rows and 64 channels of state `k`. -/
abbrev zSlab0 : Rect S4x8000x64 := Rect.unit (s := S4x8000x64) ![0, 0, 0] S1x8000x64.size inb_S4x8000x64_S1x8000x64_0_0_0
abbrev zSlab1 : Rect S4x8000x64 := Rect.unit (s := S4x8000x64) ![1, 0, 0] S1x8000x64.size inb_S4x8000x64_S1x8000x64_1_0_0
abbrev zSlab2 : Rect S4x8000x64 := Rect.unit (s := S4x8000x64) ![2, 0, 0] S1x8000x64.size inb_S4x8000x64_S1x8000x64_2_0_0
abbrev zSlab3 : Rect S4x8000x64 := Rect.unit (s := S4x8000x64) ![3, 0, 0] S1x8000x64.size inb_S4x8000x64_S1x8000x64_3_0_0
/-- Slab `k` of the weight: the 64 × 128 matrix of Chebyshev order `k`. -/
abbrev wSlab0 : Rect S4x64x128 := Rect.unit (s := S4x64x128) ![0, 0, 0] S1x64x128.size inb_S4x64x128_S1x64x128_0_0_0
abbrev wSlab1 : Rect S4x64x128 := Rect.unit (s := S4x64x128) ![1, 0, 0] S1x64x128.size inb_S4x64x128_S1x64x128_1_0_0
abbrev wSlab2 : Rect S4x64x128 := Rect.unit (s := S4x64x128) ![2, 0, 0] S1x64x128.size inb_S4x64x128_S1x64x128_2_0_0
abbrev wSlab3 : Rect S4x64x128 := Rect.unit (s := S4x64x128) ![3, 0, 0] S1x64x128.size inb_S4x64x128_S1x64x128_3_0_0
/-- The bias row, whole. -/
abbrev biasRow : Rect S1x128 := Rect.unit (s := S1x128) ![0, 0] S1x128.size inb_S1x128_S1x128_0_0
/-- The output block, whole. -/
abbrev outAll : Rect S8000x128 := Rect.unit (s := S8000x128) ![0, 0] S8000x128.size inb_S8000x128_S8000x128_0_0

/-! ## What the body leaves in the output block -/

/-- The output block after the body, from the three input blocks: the sum of the first three slab products on a
    zero block (`k0_pay2`), plus the fourth (`k0_pay3`, `k0_pay4` its two factors), plus the bias row on every row
    (`k0_pay1`), stored over the whole block. -/
def blockOut (z : Vec F S4x8000x64 .f32) (w : Vec F S4x64x128 .f32) (b : Vec F S1x128 .f32) : Vec F S8000x128 .f32 :=
  View.canon [⟨outAll, k0_pay1
    (k0_pay2 (View.ld z zSlab0) (View.ld w wSlab0) (View.ld z zSlab1) (View.ld w wSlab1) (View.ld z zSlab2) (View.ld w wSlab2))
    (k0_pay3 (View.ld z zSlab3)) (k0_pay4 (View.ld w wSlab3)) (View.ld b biasRow)⟩]

/-- The one store covers the block. -/
theorem outAll_covers (p0 : Vec F S8000x128 .f32) (y : S8000x128.Idx) :
    ∃ pc ∈ ([⟨outAll, p0⟩] : List (View.Piece (Elt F) S8000x128 .f32)), y ∈ pc.1.set :=
  View.cover_of_tiled [⟨outAll, p0⟩] S8000x128.size (by rfl) y

/-! ## The body's triple -/

set_option maxHeartbeats 2000000 in
/-- On whole staging buffers holding `z`, `w`, `b` and anything in the output's, the body runs to its end without a
    fault, leaves the three inputs as they were and the output's at `blockOut z w b`. -/
theorem sound_kernel (c : Dev nD) (E : Set ℕ) (i : grid0.Coords)
    (arg1 : Memref sig .tc .vmem S4x8000x64 .f32) (harg1 : arg1.IsWhole) (arg2 : Memref sig .tc .vmem S4x64x128 .f32) (harg2 : arg2.IsWhole)
    (arg3 : Memref sig .tc .vmem S1x128 .f32) (harg3 : arg3.IsWhole) (arg4 : Memref sig .tc .vmem S8000x128 .f32) (harg4 : arg4.IsWhole)
    (z : Vec F S4x8000x64 .f32) (w : Vec F S4x64x128 .f32) (b : Vec F S1x128 .f32) (K : PUnit → sProp 𝕄) :
    iprop(owns (c : Thread nD τ) arg1 fullShare z ∗ owns (c : Thread nD τ) arg2 fullShare w ∗ owns (c : Thread nD τ) arg3 fullShare b
        ∗ (∃ d, owns (c : Thread nD τ) arg4 fullShare d)
        ∗ (iprop(owns (c : Thread nD τ) arg1 fullShare z ∗ owns (c : Thread nD τ) arg2 fullShare w ∗ owns (c : Thread nD τ) arg3 fullShare b
            ∗ owns (c : Thread nD τ) arg4 fullShare (blockOut z w b)) -∗ K ⟨⟩))
      ⊢ wp frame (wpE (defs₀ (F := F)) Variants.none c none) E (cc0__cheb_contract_kernel i arg1 harg1 arg2 harg2 arg3 harg3 arg4 harg4) K := by
  simp only [cc0__cheb_contract_kernel_eq_skeleton]; unfold cc0__cheb_contract_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outAll_covers _)

/-! ## The proof data -/

/-- The pipeline's proof data on core `c`: the arrays as the region finds them; after the body at point `t` each
    input window's buffer at the window's block and the output's at `blockOut` of the three blocks; nothing owned
    beyond what the launch hands over; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = blockOut (iblk m c 0 t) (iblk m c 1 t) (iblk m c 2 t) := by dsimp only [dats]

/-- Each input window's buffer holds its block when the body is called. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so `sound_kernel` applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault; at the
    end every staged array is what the library computes from the proof data — the output array its region-entry
    contents overwritten block by block with `blockOut` — and every other unscoped buffer is as the two operations
    after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Around

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KIdealBlock.lean ====
/-
  One entry of the block the contraction kernel writes.

  At the ideal values a change of float format is the identity and a matrix product into a zero accumulator is
  the textbook sum, so the body's payload, read at row y and column o of the 8000 × 128 block, is

      0 + Σᵢ z[0,y,i]·w[0,i,o] + Σᵢ z[1,y,i]·w[1,i,o] + Σᵢ z[2,y,i]·w[2,i,o] + Σᵢ z[3,y,i]·w[3,i,o] + bias[0,o]

  (added from the left) of the three input blocks z (4 × 8000 × 64), w (4 × 64 × 128) and bias (1 × 128); and the
  leading zero vanishes.
-/
import proofs.«136015_j54451595379259_1_alg».proof.Proof.KIdealBody
import proofs.«136015_j54451595379259_1_alg».proof.Proof.LibPlainDot
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Around

open Idealize.ShloMosaic Idealize.ShloMosaic.ValueIdx Idealize.ShloMosaic.TcCoe Cert.KernelIdeal Cert.KernelIdeal.Gen

theorem off2_zero : (![0, 0] : Fin 2 → Nat) = fun _ => 0 := funext fun a => by fin_cases a <;> rfl

/-- Row y, channel i of slab k of the states' block is entry (k, y, i) of the block. -/
theorem zSlab0_idx (y : Fin 8000) (i : Fin 64) : zSlab0.idx (ix3 (0 : Fin 1) y i) = ix3 (0 : Fin 4) y i :=
  funext fun a => Fin.ext (by
    match a with
    | ⟨0, _⟩ => show 0 + 1 * 0 = 0; omega
    | ⟨1, _⟩ => show 0 + 1 * y.val = y.val; omega
    | ⟨2, _⟩ => show 0 + 1 * i.val = i.val; omega)
theorem zSlab1_idx (y : Fin 8000) (i : Fin 64) : zSlab1.idx (ix3 (0 : Fin 1) y i) = ix3 (1 : Fin 4) y i :=
  funext fun a => Fin.ext (by
    match a with
    | ⟨0, _⟩ => show 1 + 1 * 0 = 1; omega
    | ⟨1, _⟩ => show 0 + 1 * y.val = y.val; omega
    | ⟨2, _⟩ => show 0 + 1 * i.val = i.val; omega)
theorem zSlab2_idx (y : Fin 8000) (i : Fin 64) : zSlab2.idx (ix3 (0 : Fin 1) y i) = ix3 (2 : Fin 4) y i :=
  funext fun a => Fin.ext (by
    match a with
    | ⟨0, _⟩ => show 2 + 1 * 0 = 2; omega
    | ⟨1, _⟩ => show 0 + 1 * y.val = y.val; omega
    | ⟨2, _⟩ => show 0 + 1 * i.val = i.val; omega)
theorem zSlab3_idx (y : Fin 8000) (i : Fin 64) : zSlab3.idx (ix3 (0 : Fin 1) y i) = ix3 (3 : Fin 4) y i :=
  funext fun a => Fin.ext (by
    match a with
    | ⟨0, _⟩ => show 3 + 1 * 0 = 3; omega
    | ⟨1, _⟩ => show 0 + 1 * y.val = y.val; omega
    | ⟨2, _⟩ => show 0 + 1 * i.val = i.val; omega)
/-- Row i, column o of slab k of the weight is entry (k, i, o) of the weight. -/
theorem wSlab0_idx (i : Fin 64) (o : Fin 128) : wSlab0.idx (ix3 (0 : Fin 1) i o) = ix3 (0 : Fin 4) i o :=
  funext fun a => Fin.ext (by
    match a with
    | ⟨0, _⟩ => show 0 + 1 * 0 = 0; omega
    | ⟨1, _⟩ => show 0 + 1 * i.val = i.val; omega
    | ⟨2, _⟩ => show 0 + 1 * o.val = o.val; omega)
theorem wSlab1_idx (i : Fin 64) (o : Fin 128) : wSlab1.idx (ix3 (0 : Fin 1) i o) = ix3 (1 : Fin 4) i o :=
  funext fun a => Fin.ext (by
    match a with
    | ⟨0, _⟩ => show 1 + 1 * 0 = 1; omega
    | ⟨1, _⟩ => show 0 + 1 * i.val = i.val; omega
    | ⟨2, _⟩ => show 0 + 1 * o.val = o.val; omega)
theorem wSlab2_idx (i : Fin 64) (o : Fin 128) : wSlab2.idx (ix3 (0 : Fin 1) i o) = ix3 (2 : Fin 4) i o :=
  funext fun a => Fin.ext (by
    match a with
    | ⟨0, _⟩ => show 2 + 1 * 0 = 2; omega
    | ⟨1, _⟩ => show 0 + 1 * i.val = i.val; omega
    | ⟨2, _⟩ => show 0 + 1 * o.val = o.val; omega)
theorem wSlab3_idx (i : Fin 64) (o : Fin 128) : wSlab3.idx (ix3 (0 : Fin 1) i o) = ix3 (3 : Fin 4) i o :=
  funext fun a => Fin.ext (by
    match a with
    | ⟨0, _⟩ => show 3 + 1 * 0 = 3; omega
    | ⟨1, _⟩ => show 0 + 1 * i.val = i.val; omega
    | ⟨2, _⟩ => show 0 + 1 * o.val = o.val; omega)

/-- One slab product at (y, o): the 8000 × 64 slab (as loaded, with its leading unit axis) times the 64 × 128
    slab, into a zero accumulator, is the sum over the 64 channels. -/
theorem slab_prod (zk : Vec Ideal S1x8000x64 .f32) (wk : Vec Ideal S1x64x128 .f32) (y : Fin 8000) (o : Fin 128) :
    matmul dot_S8000x64_S64x128_S8000x128_1_0_0_1_n_n none
      (truncf .bf16 (shapeCast S8000x64 zk shapeCasts_S1x8000x64_S8000x64) bitsLt_bf16_f32)
      (truncf .bf16 (shapeCast S64x128 wk shapeCasts_S1x64x128_S64x128) bitsLt_bf16_f32)
      (constant (F := Ideal) S8000x128 .f32 0x00000000#32) (ix2 y o)
    = ∑ i : Fin 64, zk (ix3 (0 : Fin 1) y i) * wk (ix3 (0 : Fin 1) i o) := by
  refine (LibPlainDot.matmul_zero_apply (M := 8000) (K := 64) (N := 128) none _ _ y o).trans ?_
  refine Finset.sum_congr rfl fun i _ => ?_
  rw [truncf_apply, truncf_apply, shapeCast_1ab_ab_apply, shapeCast_1ab_ab_apply]

/-- The block's entry at row y, column o. -/
theorem blockOut_apply (z : Vec Ideal S4x8000x64 .f32) (w : Vec Ideal S4x64x128 .f32) (bb : Vec Ideal S1x128 .f32)
    (y : Fin 8000) (o : Fin 128) :
    blockOut (F := Ideal) z w bb (ix2 y o)
      = ((((∑ i : Fin 64, z (ix3 (0 : Fin 4) y i) * w (ix3 (0 : Fin 4) i o))
          + ∑ i : Fin 64, z (ix3 (1 : Fin 4) y i) * w (ix3 (1 : Fin 4) i o))
          + ∑ i : Fin 64, z (ix3 (2 : Fin 4) y i) * w (ix3 (2 : Fin 4) i o))
          + ∑ i : Fin 64, z (ix3 (3 : Fin 4) y i) * w (ix3 (3 : Fin 4) i o))
        + bb (ix2 (0 : Fin 1) o) := by
  unfold blockOut
  rw [View.canon_unit_zero off2_zero]
  simp only [k0_pay1, k0_pay2, k0_pay3, k0_pay4, addf_apply, broadcast_apply]
  rw [slab_prod, slab_prod, slab_prod, slab_prod, broadcastTo_1b_ab_apply, shapeCast_self,
    View.ld_unit_zero (S := S1x128) off2_zero]
  simp only [View.ld, zSlab0_idx, zSlab1_idx, zSlab2_idx, zSlab3_idx, wSlab0_idx, wSlab1_idx, wSlab2_idx, wSlab3_idx]
  rw [show (FloatOps.ofBits (F := Ideal) .f32 0x00000000#32) = (0 : EReal) from Ideal.ofBits_zero_f32, zero_add]

end Cert.KernelIdeal.Around

end
-- ==== Proof.LibStackOfFn.lean ====
/-
  A concatenation of four pieces listed one by one, read at an index.

  The library reads a concatenation of N pieces of one shape when the pieces are given as a family indexed by
  position (`List.ofFn`). A printed program lists the pieces one by one. For four pieces the two lists are equal, a
  concatenation depends on nothing but its list, and so the listed form is read the same way: the piece the axis
  coordinate over the pieces' extent names, at the index with that coordinate reduced modulo the extent and the
  other coordinates unchanged.
-/
import Idealize.ShloMosaic.Lib.Pipeline.Value

noncomputable section

namespace Cert.LibStackOfFn

open Idealize.ShloMosaic

variable {α : Type}

/-- A concatenation depends on its list of pieces only: equal lists give equal arrays (the side condition about the
    pieces' shapes is carried along the equation). -/
theorem concatenate_congr {t : Shape} (a : Fin t.rank) {xs ys : List ((s : Shape) × (s.Idx → α))} (e : xs = ys)
    (h : Shape.Concatenates (xs.map (·.1)) t a) : concatenate t a xs h = concatenate t a ys (e ▸ h) := by
  subst e; rfl

/-- Four entries listed one by one are the list of the family that has them at positions 0, 1, 2, 3. -/
theorem four_ofFn {β : Type} (f : Fin 4 → β) : [f 0, f 1, f 2, f 3] = List.ofFn f := by
  simp [List.ofFn_succ]

/-- Four pieces of one shape `s₁`, listed one by one and concatenated along axis `a` where each has extent `K`, read
    at `j`: piece `n = (j a) / K` at the index `i` whose coordinate on that axis is `(j a) % K` and whose other
    coordinates are `j`'s. -/
theorem concatenate_four_apply {t s₁ : Shape} (a : Fin t.rank) (G : Fin 4 → (s₁.Idx → α))
    (h : Shape.Concatenates [s₁, s₁, s₁, s₁] t a) (hr : s₁.rank = t.rank) (K : Nat) (hK : s₁.size (a.cast hr.symm) = K)
    (j : t.Idx) (n : Fin 4) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, G 0⟩, ⟨s₁, G 1⟩, ⟨s₁, G 2⟩, ⟨s₁, G 3⟩] h j = G n i := by
  have e := four_ofFn (fun n : Fin 4 => (⟨s₁, G n⟩ : (s : Shape) × (s.Idx → α)))
  refine (congrFun (concatenate_congr a e h) j).trans ?_
  exact concatenate_ofFn_apply a G _ hr K hK j n hn i hia hi

end Cert.LibStackOfFn

end
-- ==== Proof.KIdealRows.lean ====
/-
  The contraction kernel's blocks as pieces of one array.

  Let Z (4 × 200000 × 64), W (4 × 64 × 128) and B (1 × 128) be ANY arrays standing where the region's three input
  windows stage from. Grid point t reads rows 8000·t … 8000·t + 7999 of each of Z's four slabs, all of W and the
  row B, and its body leaves in the output block, at (y, o), the sum

      Σᵢ Z[0,r,i]·W[0,i,o] + Σᵢ Z[1,r,i]·W[1,i,o] + Σᵢ Z[2,r,i]·W[2,i,o] + Σᵢ Z[3,r,i]·W[3,i,o] + B[0,o],   r = 8000·t + y,

  which depends on t and y only through the row r. So the block point t writes is block t of ONE 200000 × 128
  array, and the twenty-five blocks tile that array.
-/
import proofs.«136015_j54451595379259_1_alg».proof.Proof.KIdealBlock
import proofs.«136015_j54451595379259_1_alg».proof.Proof.ChebSpec
import proofs.«136015_j54451595379259_1_alg».proof.Proof.LibStackOfFn
import Idealize.ShloMosaic.Lib.Pipeline.Value

set_option maxRecDepth 16384

noncomputable section

open scoped BigOperators

namespace Cert.KernelIdeal.Around

open Idealize.ShloMosaic Idealize.ShloMosaic.ValueIdx Idealize.ShloMosaic.TcCoe Idealize.SL.Sem
open Cert.KernelIdeal Cert.KernelIdeal.Gen

variable (Z : (⟨S4x200000x64, .f32⟩ : BufTy).Contents (Elt Ideal)) (Wt : (⟨S4x64x128, .f32⟩ : BufTy).Contents (Elt Ideal))
  (Bs : (⟨S1x128, .f32⟩ : BufTy).Contents (Elt Ideal))

/-- Entry (r, o) of the result: the four channel sums of row r against the weight's four matrices, added from the
    left, plus the bias. -/
def rowSum (r : Fin 200000) (o : Fin 128) : EReal :=
  ((((∑ i : Fin 64, Z (ix3 (0 : Fin 4) r i) * Wt (ix3 (0 : Fin 4) i o))
      + ∑ i : Fin 64, Z (ix3 (1 : Fin 4) r i) * Wt (ix3 (1 : Fin 4) i o))
      + ∑ i : Fin 64, Z (ix3 (2 : Fin 4) r i) * Wt (ix3 (2 : Fin 4) i o))
      + ∑ i : Fin 64, Z (ix3 (3 : Fin 4) r i) * Wt (ix3 (3 : Fin 4) i o))
    + Bs (ix2 (0 : Fin 1) o)

/-- The whole 200000 × 128 array. -/
def outRows : (⟨S200000x128, .f32⟩ : BufTy).Contents (Elt Ideal) := fun j => rowSum Z Wt Bs (j 0) (j 1)

/-- The printed index maps over the grid: the states' window moves along its row axis with the point, as the
    output's does; the weight's and the bias's stay put. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row y of point t's block is row 8000·t + y of the array. -/
def rowOf (t : Fin cfg0.N) (y : Fin 8000) : Fin 200000 :=
  ⟨t.val * 8000 + y.val, by have ht : t.val < 25 := lt_of_lt_of_eq t.isLt N_0; have := y.isLt; omega⟩

theorem z_entry (t : Fin cfg0.N) (k : Fin 4) (y : Fin 8000) (i : Fin 64) :
    ((cfg0.win 0).blk t).view.read (Elt Ideal) Z (ix3 k y i) = Z (ix3 k (rowOf t y) i) := by
  obtain ⟨e0, e1, e2, -⟩ := idx_facts t
  have h : ((cfg0.win 0).blk t).view.emb (ix3 k y i) = ix3 k (rowOf t y) i := funext fun a => Fin.ext (by
    match a with
    | ⟨0, _⟩ => show win0_0.index t (0 : Fin 3) * 4 + 1 * k.val = k.val; omega
    | ⟨1, _⟩ => show win0_0.index t (1 : Fin 3) * 8000 + 1 * y.val = t.val * 8000 + y.val; omega
    | ⟨2, _⟩ => show win0_0.index t (2 : Fin 3) * 64 + 1 * i.val = i.val; omega)
  show Z (((cfg0.win 0).blk t).view.emb (ix3 k y i)) = _
  rw [h]

theorem w_entry (t : Fin cfg0.N) (k : Fin 4) (i : Fin 64) (o : Fin 128) :
    ((cfg0.win 1).blk t).view.read (Elt Ideal) Wt (ix3 k i o) = Wt (ix3 k i o) := by
  obtain ⟨-, -, -, e3, e4, e5, -⟩ := idx_facts t
  have h : ((cfg0.win 1).blk t).view.emb (ix3 k i o) = ix3 k i o := funext fun a => Fin.ext (by
    match a with
    | ⟨0, _⟩ => show win0_1.index t (0 : Fin 3) * 4 + 1 * k.val = k.val; omega
    | ⟨1, _⟩ => show win0_1.index t (1 : Fin 3) * 64 + 1 * i.val = i.val; omega
    | ⟨2, _⟩ => show win0_1.index t (2 : Fin 3) * 128 + 1 * o.val = o.val; omega)
  show Wt (((cfg0.win 1).blk t).view.emb (ix3 k i o)) = _
  rw [h]

theorem b_entry (t : Fin cfg0.N) (o : Fin 128) :
    ((cfg0.win 2).blk t).view.read (Elt Ideal) Bs (ix2 (0 : Fin 1) o) = Bs (ix2 (0 : Fin 1) o) := by
  obtain ⟨-, -, -, -, -, -, e6, e7, -⟩ := idx_facts t
  have h : ((cfg0.win 2).blk t).view.emb (ix2 (0 : Fin 1) o) = ix2 (0 : Fin 1) o := funext fun a => Fin.ext (by
    match a with
    | ⟨0, _⟩ => show win0_2.index t (0 : Fin 2) * 1 + 1 * 0 = 0; omega
    | ⟨1, _⟩ => show win0_2.index t (1 : Fin 2) * 128 + 1 * o.val = o.val; omega)
  show Bs (((cfg0.win 2).blk t).view.emb (ix2 (0 : Fin 1) o)) = _
  rw [h]

/-- Entry (y, o) of what point t's body leaves is entry (8000·t + y, o) of the whole array. -/
theorem blk_entry (t : Fin cfg0.N) (y : Fin 8000) (o : Fin 128) :
    blockOut (F := Ideal) (((cfg0.win 0).blk t).view.read (Elt Ideal) Z) (((cfg0.win 1).blk t).view.read (Elt Ideal) Wt)
        (((cfg0.win 2).blk t).view.read (Elt Ideal) Bs) (ix2 y o)
      = rowSum Z Wt Bs (rowOf t y) o := by
  refine (blockOut_apply _ _ _ y o).trans ?_
  unfold rowSum
  refine congrArg₂ (fun a b : EReal => a + b) (congrArg₂ (fun a b : EReal => a + b) (congrArg₂ (fun a b : EReal => a + b)
    (congrArg₂ (fun a b : EReal => a + b) ?_ ?_) ?_) ?_) ?_
  · exact Finset.sum_congr rfl fun i _ => by rw [z_entry, w_entry]
  · exact Finset.sum_congr rfl fun i _ => by rw [z_entry, w_entry]
  · exact Finset.sum_congr rfl fun i _ => by rw [z_entry, w_entry]
  · exact Finset.sum_congr rfl fun i _ => by rw [z_entry, w_entry]
  · exact b_entry Bs t o

/-- What point t's body leaves is block t of the whole array. -/
theorem blk_eq (t : Fin cfg0.N) :
    blockOut (F := Ideal) (((cfg0.win 0).blk t).view.read (Elt Ideal) Z) (((cfg0.win 1).blk t).view.read (Elt Ideal) Wt)
        (((cfg0.win 2).blk t).view.read (Elt Ideal) Bs)
      = ((cfg0.win 3).blk t).view.read (Elt Ideal) (outRows Z Wt Bs) := by
  obtain ⟨-, -, -, -, -, -, -, -, e8, e9⟩ := idx_facts t
  funext j
  obtain ⟨y, o, rfl⟩ : ∃ (y : Fin 8000) (o : Fin 128), j = ix2 y o := ⟨j 0, j 1, eq_ix2 j⟩
  have h : ((cfg0.win 3).blk t).view.emb (ix2 y o) = ix2 (rowOf t y) o := funext fun a => Fin.ext (by
    match a with
    | ⟨0, _⟩ => show win0_3.index t (0 : Fin 2) * 8000 + 1 * y.val = t.val * 8000 + y.val; omega
    | ⟨1, _⟩ => show win0_3.index t (1 : Fin 2) * 128 + 1 * o.val = o.val; omega)
  refine (blk_entry Z Wt Bs t y o).trans ?_
  show _ = outRows Z Wt Bs (((cfg0.win 3).blk t).view.emb (ix2 y o))
  rw [h]
  rfl

/-- An index of the array is in point t's block iff each coordinate is in the block's range. -/
theorem mem_blk_out (t : Fin cfg0.N) (i : S200000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v54).slice (win0_3.rect t)).set ↔ _
  rw [View.set_slice_whole, Rect.mem_set_unit]
  exact Iff.rfl

/-- Every row belongs to the block of the point row / 8000. -/
theorem covered (i : S200000x128.Idx) : ∃ t : Fin cfg0.N, (cfg0.win 3).flush t = true ∧ i ∈ ((cfg0.win 3).blk t).view.set := by
  have h0 : (i 0).val < 200000 := (i 0).isLt
  have h1 : (i 1).val < 128 := (i 1).isLt
  have hN : (i 0).val / 8000 < cfg0.N := lt_of_lt_of_eq (by omega : (i 0).val / 8000 < 25) N_0.symm
  obtain ⟨-, -, -, -, -, -, -, -, e8, e9⟩ := idx_facts ⟨(i 0).val / 8000, hN⟩
  refine ⟨⟨(i 0).val / 8000, hN⟩, flush0_3 _, ?_⟩
  rw [mem_blk_out]
  intro a
  match a with
  | ⟨0, _⟩ =>
    show win0_3.index ⟨(i 0).val / 8000, hN⟩ (0 : Fin 2) * 8000 ≤ (i 0).val ∧ (i 0).val < win0_3.index ⟨(i 0).val / 8000, hN⟩ (0 : Fin 2) * 8000 + 8000
    have e8' : win0_3.index ⟨(i 0).val / 8000, hN⟩ (0 : Fin 2) = (i 0).val / 8000 := e8
    omega
  | ⟨1, _⟩ =>
    show win0_3.index ⟨(i 0).val / 8000, hN⟩ (1 : Fin 2) * 128 ≤ (i 1).val ∧ (i 1).val < win0_3.index ⟨(i 0).val / 8000, hN⟩ (1 : Fin 2) * 128 + 128
    omega

/-! ## The array re-laid, against the specification -/

/-- Row v·4 + b of the 200000-row layout. -/
def vb (v : Fin 50000) (b : Fin 4) : Fin 200000 := ⟨v.val * 4 + b.val, by have := v.isLt; have := b.isLt; omega⟩

/-- If row v·4 + b of slab k of Z holds the 64 channels of batch entry b at vertex v of a state Xₖ, W is the weight
    and B's one row is the bias, then the 200000 × 128 array re-laid as 50000 × 4 × 128 is the specification's array
    of X₀ … X₃: entry (v, b, o) of the re-laid array is entry (v·4 + b, o) of the array, and the two sums agree term
    by term. -/
theorem rows_spec (X0 X1 X2 X3 : FVec Ideal ⟨2, ![50000, 256]⟩ .f32) (W : FVec Ideal ⟨3, ![4, 64, 128]⟩ .f32)
    (B : FVec Ideal ⟨1, ![128]⟩ .f32)
    (h0 : ∀ (v : Fin 50000) (b : Fin 4) (i : Fin 64), Z (ix3 (0 : Fin 4) (vb v b) i) = X0 (ix2 v (ChebSpec.col b i)))
    (h1 : ∀ (v : Fin 50000) (b : Fin 4) (i : Fin 64), Z (ix3 (1 : Fin 4) (vb v b) i) = X1 (ix2 v (ChebSpec.col b i)))
    (h2 : ∀ (v : Fin 50000) (b : Fin 4) (i : Fin 64), Z (ix3 (2 : Fin 4) (vb v b) i) = X2 (ix2 v (ChebSpec.col b i)))
    (h3 : ∀ (v : Fin 50000) (b : Fin 4) (i : Fin 64), Z (ix3 (3 : Fin 4) (vb v b) i) = X3 (ix2 v (ChebSpec.col b i)))
    (hW : ∀ (k : Fin 4) (i : Fin 64) (o : Fin 128), Wt (ix3 k i o) = W (ix3 k i o))
    (hB : ∀ o : Fin 128, Bs (ix2 (0 : Fin 1) o) = B (ix1 o)) :
    shapeCast S50000x4x128 (outRows Z Wt Bs) shapeCasts_S200000x128_S50000x4x128 = ChebSpec.outArr X0 X1 X2 X3 W B := by
  funext j
  obtain ⟨v, b, o, rfl⟩ : ∃ (v : Fin 50000) (b : Fin 4) (o : Fin 128), j = ix3 v b o := ⟨j 0, j 1, j 2, eq_ix3 j⟩
  refine (shapeCast_apply _ shapeCasts_S200000x128_S50000x4x128 (ix3 v b o) (ix2 (vb v b) o) ?_).trans ?_
  · rewrite [Shape.rowMajor_val_two, Shape.rowMajor_val_three]
    rfl
  · show rowSum Z Wt Bs (vb v b) o = ChebSpec.out X0 X1 X2 X3 W B v b o
    unfold rowSum ChebSpec.out ChebSpec.term
    refine congrArg₂ (fun a b : EReal => a + b) (congrArg₂ (fun a b : EReal => a + b) (congrArg₂ (fun a b : EReal => a + b)
      (congrArg₂ (fun a b : EReal => a + b) ?_ ?_) ?_) ?_) ?_
    · exact Finset.sum_congr rfl fun i _ => by rw [h0, hW]
    · exact Finset.sum_congr rfl fun i _ => by rw [h1, hW]
    · exact Finset.sum_congr rfl fun i _ => by rw [h2, hW]
    · exact Finset.sum_congr rfl fun i _ => by rw [h3, hW]
    · exact hB o

/-! ## The re-laid stack of four states, read at an index -/

/-- Four arrays of shape 1 × 50000 × 256 stacked along the leading axis, read at (k, v, j): piece k at (0, v, j). -/
theorem stack4_apply (G : Fin 4 → (S1x50000x256.Idx → EReal)) (k : Fin 4) (v : Fin 50000) (j : Fin 256) :
    concatenate S4x50000x256 0 [⟨S1x50000x256, G 0⟩, ⟨S1x50000x256, G 1⟩, ⟨S1x50000x256, G 2⟩, ⟨S1x50000x256, G 3⟩]
      concatenates_S1x50000x256_S1x50000x256_S1x50000x256_S1x50000x256_S4x50000x256_d0 (ix3 k v j) = G k (ix3 (0 : Fin 1) v j) := by
  refine LibStackOfFn.concatenate_four_apply (t := S4x50000x256) (s₁ := S1x50000x256) (0 : Fin 3) G
    concatenates_S1x50000x256_S1x50000x256_S1x50000x256_S1x50000x256_S4x50000x256_d0 rfl 1 rfl (ix3 k v j) k (Nat.div_one _)
    (ix3 (0 : Fin 1) v j) (Nat.mod_one _).symm (fun a ha => ?_)
  match a with
  | ⟨0, _⟩ => exact absurd (Fin.ext rfl) ha
  | ⟨1, _⟩ => rfl
  | ⟨2, _⟩ => rfl

/-- A 50000 × 256 array given a leading unit axis, read at (0, v, j). -/
theorem unitAxis_apply (X : FVec Ideal ⟨2, ![50000, 256]⟩ .f32) (v : Fin 50000) (j : Fin 256) :
    broadcastInDim S1x50000x256 ![1, 2] bcast_S50000x256_S1x50000x256_1_2 X (ix3 (0 : Fin 1) v j) = X (ix2 v j) :=
  broadcastInDim_apply _ bcast_S50000x256_S1x50000x256_1_2 X (ix3 (0 : Fin 1) v j) (ix2 v j) (fun a => match a with
    | ⟨0, _⟩ => by show v.val = if (50000 : Nat) = 1 then 0 else v.val; rw [if_neg (by decide)]
    | ⟨1, _⟩ => by show j.val = if (256 : Nat) = 1 then 0 else j.val; rw [if_neg (by decide)])

/-- Four states given their unit axes, stacked, and the stack 4 × 50000 × 256 re-laid as 4 × 200000 × 64: entry
    (k, v·4 + b, i) is entry (v, b·64 + i) of state k, because (k·200000 + v·4 + b)·64 + i = (k·50000 + v)·256 + b·64 + i. -/
theorem stack_read (X : Fin 4 → FVec Ideal ⟨2, ![50000, 256]⟩ .f32) (k : Fin 4) (v : Fin 50000) (b : Fin 4) (i : Fin 64) :
    shapeCast S4x200000x64 (concatenate S4x50000x256 0
        [⟨S1x50000x256, broadcastInDim S1x50000x256 ![1, 2] bcast_S50000x256_S1x50000x256_1_2 (X 0)⟩,
         ⟨S1x50000x256, broadcastInDim S1x50000x256 ![1, 2] bcast_S50000x256_S1x50000x256_1_2 (X 1)⟩,
         ⟨S1x50000x256, broadcastInDim S1x50000x256 ![1, 2] bcast_S50000x256_S1x50000x256_1_2 (X 2)⟩,
         ⟨S1x50000x256, broadcastInDim S1x50000x256 ![1, 2] bcast_S50000x256_S1x50000x256_1_2 (X 3)⟩]
        concatenates_S1x50000x256_S1x50000x256_S1x50000x256_S1x50000x256_S4x50000x256_d0) shapeCasts_S4x50000x256_S4x200000x64
      (ix3 k (vb v b) i) = X k (ix2 v (ChebSpec.col b i)) := by
  have hk := k.isLt; have hv := v.isLt; have hb := b.isLt; have hi := i.isLt
  refine (shapeCast_apply _ shapeCasts_S4x50000x256_S4x200000x64 (ix3 k (vb v b) i) (ix3 k v (ChebSpec.col b i)) ?_).trans ?_
  · rewrite [Shape.rowMajor_val_three, Shape.rowMajor_val_three]
    show (k.val * 50000 + v.val) * 256 + (b.val * 64 + i.val) = (k.val * 200000 + (v.val * 4 + b.val)) * 64 + i.val
    omega
  · refine (stack4_apply (fun n => broadcastInDim S1x50000x256 ![1, 2] bcast_S50000x256_S1x50000x256_1_2 (X n)) k v (ChebSpec.col b i)).trans ?_
    exact unitAxis_apply (X k) v (ChebSpec.col b i)

/-- The same for each of the four slabs, the states named one by one. -/
theorem stack_read0 (X0 X1 X2 X3 : FVec Ideal ⟨2, ![50000, 256]⟩ .f32) (v : Fin 50000) (b : Fin 4) (i : Fin 64) :
    shapeCast S4x200000x64 (concatenate S4x50000x256 0
        [⟨S1x50000x256, broadcastInDim S1x50000x256 ![1, 2] bcast_S50000x256_S1x50000x256_1_2 X0⟩,
         ⟨S1x50000x256, broadcastInDim S1x50000x256 ![1, 2] bcast_S50000x256_S1x50000x256_1_2 X1⟩,
         ⟨S1x50000x256, broadcastInDim S1x50000x256 ![1, 2] bcast_S50000x256_S1x50000x256_1_2 X2⟩,
         ⟨S1x50000x256, broadcastInDim S1x50000x256 ![1, 2] bcast_S50000x256_S1x50000x256_1_2 X3⟩]
        concatenates_S1x50000x256_S1x50000x256_S1x50000x256_S1x50000x256_S4x50000x256_d0) shapeCasts_S4x50000x256_S4x200000x64
      (ix3 (0 : Fin 4) (vb v b) i) = X0 (ix2 v (ChebSpec.col b i)) :=
  stack_read ![X0, X1, X2, X3] 0 v b i
theorem stack_read1 (X0 X1 X2 X3 : FVec Ideal ⟨2, ![50000, 256]⟩ .f32) (v : Fin 50000) (b : Fin 4) (i : Fin 64) :
    shapeCast S4x200000x64 (concatenate S4x50000x256 0
        [⟨S1x50000x256, broadcastInDim S1x50000x256 ![1, 2] bcast_S50000x256_S1x50000x256_1_2 X0⟩,
         ⟨S1x50000x256, broadcastInDim S1x50000x256 ![1, 2] bcast_S50000x256_S1x50000x256_1_2 X1⟩,
         ⟨S1x50000x256, broadcastInDim S1x50000x256 ![1, 2] bcast_S50000x256_S1x50000x256_1_2 X2⟩,
         ⟨S1x50000x256, broadcastInDim S1x50000x256 ![1, 2] bcast_S50000x256_S1x50000x256_1_2 X3⟩]
        concatenates_S1x50000x256_S1x50000x256_S1x50000x256_S1x50000x256_S4x50000x256_d0) shapeCasts_S4x50000x256_S4x200000x64
      (ix3 (1 : Fin 4) (vb v b) i) = X1 (ix2 v (ChebSpec.col b i)) :=
  stack_read ![X0, X1, X2, X3] 1 v b i
theorem stack_read2 (X0 X1 X2 X3 : FVec Ideal ⟨2, ![50000, 256]⟩ .f32) (v : Fin 50000) (b : Fin 4) (i : Fin 64) :
    shapeCast S4x200000x64 (concatenate S4x50000x256 0
        [⟨S1x50000x256, broadcastInDim S1x50000x256 ![1, 2] bcast_S50000x256_S1x50000x256_1_2 X0⟩,
         ⟨S1x50000x256, broadcastInDim S1x50000x256 ![1, 2] bcast_S50000x256_S1x50000x256_1_2 X1⟩,
         ⟨S1x50000x256, broadcastInDim S1x50000x256 ![1, 2] bcast_S50000x256_S1x50000x256_1_2 X2⟩,
         ⟨S1x50000x256, broadcastInDim S1x50000x256 ![1, 2] bcast_S50000x256_S1x50000x256_1_2 X3⟩]
        concatenates_S1x50000x256_S1x50000x256_S1x50000x256_S1x50000x256_S4x50000x256_d0) shapeCasts_S4x50000x256_S4x200000x64
      (ix3 (2 : Fin 4) (vb v b) i) = X2 (ix2 v (ChebSpec.col b i)) :=
  stack_read ![X0, X1, X2, X3] 2 v b i
theorem stack_read3 (X0 X1 X2 X3 : FVec Ideal ⟨2, ![50000, 256]⟩ .f32) (v : Fin 50000) (b : Fin 4) (i : Fin 64) :
    shapeCast S4x200000x64 (concatenate S4x50000x256 0
        [⟨S1x50000x256, broadcastInDim S1x50000x256 ![1, 2] bcast_S50000x256_S1x50000x256_1_2 X0⟩,
         ⟨S1x50000x256, broadcastInDim S1x50000x256 ![1, 2] bcast_S50000x256_S1x50000x256_1_2 X1⟩,
         ⟨S1x50000x256, broadcastInDim S1x50000x256 ![1, 2] bcast_S50000x256_S1x50000x256_1_2 X2⟩,
         ⟨S1x50000x256, broadcastInDim S1x50000x256 ![1, 2] bcast_S50000x256_S1x50000x256_1_2 X3⟩]
        concatenates_S1x50000x256_S1x50000x256_S1x50000x256_S1x50000x256_S4x50000x256_d0) shapeCasts_S4x50000x256_S4x200000x64
      (ix3 (3 : Fin 4) (vb v b) i) = X3 (ix2 v (ChebSpec.col b i)) :=
  stack_read ![X0, X1, X2, X3] 3 v b i

end Cert.KernelIdeal.Around

end
-- ==== Proof.KIdealValue.lean ====
/-
  The idealized kernel's result as one function of its arguments.

  Every block the region writes back is a block of ONE 200000 × 128 array of the three arrays its input windows
  stage from, and the blocks tile it, so after the run the output array is that array. The first staged array is
  the re-laid stack of the four states — row v·4 + b of state k's slab holds the 64 channels of batch entry b at
  vertex v — the second is the weight and the third the bias as a row; so re-laying the output as 50000 × 4 × 128
  gives the specification's array of the four states, which the last host operation transposes to
  batch × out-channels × vertices.
-/
import proofs.«136015_j54451595379259_1_alg».proof.Proof.KIdealStates
import proofs.«136015_j54451595379259_1_alg».proof.Proof.KIdealRows
import proofs.«136015_j54451595379259_1_alg».proof.Proof.ChebSpec

set_option maxRecDepth 16384

noncomputable section

open scoped BigOperators

namespace Cert.KernelIdeal.Around

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The output array after the run -/

/-- What point t writes back is block t of the one array. -/
theorem flushed_eq (c : Dev nD) (t : Fin cfg0.N) :
    (dats m 0 c).flushed 3 t = ((cfg0.win 3).blk t).view.read (Elt Ideal) (outRows (V m c (Pipeline.arrRef spec0 0)) (V m c (Pipeline.arrRef spec0 1)) (V m c (Pipeline.arrRef spec0 2))) := by
  show (cfg0.win 3).cut (grid0.coords t) ((dats m 0 c).after 3 t) = _
  rw [after_out]
  unfold iblk
  generalize V m c (Pipeline.arrRef spec0 0) = Z
  generalize V m c (Pipeline.arrRef spec0 1) = Wt
  generalize V m c (Pipeline.arrRef spec0 2) = Bs
  funext j
  exact congrFun (blk_eq Z Wt Bs t) j

/-- The blocks tile the array, so it ends holding that array. -/
theorem final_out (c : Dev nD) : (dats m 0 c).arrAt 3 cfg0.N = outRows (V m c (Pipeline.arrRef spec0 0)) (V m c (Pipeline.arrRef spec0 1)) (V m c (Pipeline.arrRef spec0 2)) :=
  (dats m 0 c).arrAt_eq_of_cover 3 _ (fun t _ => flushed_eq m c t) (fun i => covered i)

/-! ## The two operations after the region -/

/-- The result buffer after the last operation: the output array re-laid as 50000 × 4 × 128 and transposed. -/
theorem result_tail (c : Dev nD) :
    Pipeline.afterTail₀ cfgs (dats m) 0 (V0 m) [hostOps1] c main_v56
      = transpose S4x128x50000 [1, 2, 0] (shapeCast S50000x4x128 (outRows (V m c (Pipeline.arrRef spec0 0)) (V m c (Pipeline.arrRef spec0 1)) (V m c (Pipeline.arrRef spec0 2))) shapeCasts_S200000x128_S50000x4x128) transposes_S50000x4x128_S4x128x50000_1_2_0 := by
  unfold Pipeline.afterTail₀
  show StableHlo.after (List.flatten [hostOps1]) _ (Proc.devRef .tc main_v56) = _
  simp only [hostOps1, List.flatten_cons, List.flatten_nil, List.append_nil]
  after_results
  rw [← final_out]
  have hw := Pipeline.withArrays_arr spec0 launch0.win.arr_inj c (V0 m c) (fun w => (dats m 0 c).arrAt w (cfgs 0).N) 3
  exact congrArg (fun x => transpose S4x128x50000 [1, 2, 0] (shapeCast S50000x4x128 x shapeCasts_S200000x128_S50000x4x128) transposes_S50000x4x128_S4x128x50000_1_2_0) hw

/-! ## The staged arrays, read -/

/-- The three arrays the input windows stage from are the re-laid stack, the weight and the bias row. -/
theorem arr0 : Pipeline.arrRef spec0 (0 : Fin 4) = main_v52 := rfl
theorem arr1 : Pipeline.arrRef spec0 (1 : Fin 4) = main_arg4 := rfl
theorem arr2 : Pipeline.arrRef spec0 (2 : Fin 4) = main_v53 := rfl

theorem V_heq0 (c : Dev nD) : HEq (V m c (Pipeline.arrRef spec0 0)) (V m c main_v52) := by rw [arr0]
theorem V_heq1 (c : Dev nD) : HEq (V m c (Pipeline.arrRef spec0 1)) (V m c main_arg4) := by rw [arr1]
theorem V_heq2 (c : Dev nD) : HEq (V m c (Pipeline.arrRef spec0 2)) (V m c main_v53) := by rw [arr2]
theorem V_arr0 (c : Dev nD) : V m c (Pipeline.arrRef spec0 0) = V m c main_v52 := eq_of_heq (V_heq0 m c)
theorem V_arr1 (c : Dev nD) : V m c (Pipeline.arrRef spec0 1) = V m c main_arg4 := eq_of_heq (V_heq1 m c)
theorem V_arr2 (c : Dev nD) : V m c (Pipeline.arrRef spec0 2) = V m c main_v53 := eq_of_heq (V_heq2 m c)

/-- Entry (k, v·4 + b, i) of the first staged array is channel i of batch entry b at vertex v of state k. -/
theorem stack_vb0 (c : Dev nD) (v : Fin 50000) (b : Fin 4) (i : Fin 64) :
    V m c (Pipeline.arrRef spec0 0) (ix3 (0 : Fin 4) (vb v b) i) = state0 m c (ix2 v (ChebSpec.col b i)) :=
  (congrFun ((V_arr0 m c).trans (V_stack m c)) (ix3 (0 : Fin 4) (vb v b) i)).trans
    (stack_read0 (state0 m c) (state1 m c) (state2 m c) (state3 m c) v b i)
theorem stack_vb1 (c : Dev nD) (v : Fin 50000) (b : Fin 4) (i : Fin 64) :
    V m c (Pipeline.arrRef spec0 0) (ix3 (1 : Fin 4) (vb v b) i) = state1 m c (ix2 v (ChebSpec.col b i)) :=
  (congrFun ((V_arr0 m c).trans (V_stack m c)) (ix3 (1 : Fin 4) (vb v b) i)).trans
    (stack_read1 (state0 m c) (state1 m c) (state2 m c) (state3 m c) v b i)
theorem stack_vb2 (c : Dev nD) (v : Fin 50000) (b : Fin 4) (i : Fin 64) :
    V m c (Pipeline.arrRef spec0 0) (ix3 (2 : Fin 4) (vb v b) i) = state2 m c (ix2 v (ChebSpec.col b i)) :=
  (congrFun ((V_arr0 m c).trans (V_stack m c)) (ix3 (2 : Fin 4) (vb v b) i)).trans
    (stack_read2 (state0 m c) (state1 m c) (state2 m c) (state3 m c) v b i)
theorem stack_vb3 (c : Dev nD) (v : Fin 50000) (b : Fin 4) (i : Fin 64) :
    V m c (Pipeline.arrRef spec0 0) (ix3 (3 : Fin 4) (vb v b) i) = state3 m c (ix2 v (ChebSpec.col b i)) :=
  (congrFun ((V_arr0 m c).trans (V_stack m c)) (ix3 (3 : Fin 4) (vb v b) i)).trans
    (stack_read3 (state0 m c) (state1 m c) (state2 m c) (state3 m c) v b i)

/-- The second staged array is the weight as launched. -/
theorem weight_eq (c : Dev nD) : V m c (Pipeline.arrRef spec0 1) = (m ((c : Thread nD τ).loc main_arg4)) := (V_arr1 m c).trans (V_main_arg4 m c)

/-- Entry (0, o) of the third staged array is entry o of the bias as launched. -/
theorem biasRow_apply (c : Dev nD) (o : Fin 128) : V m c (Pipeline.arrRef spec0 2) (ix2 (0 : Fin 1) o) = (m ((c : Thread nD τ).loc main_arg5)) (ix1 o) := by
  refine (congrFun ((V_arr2 m c).trans (V_biasRow m c)) (ix2 (0 : Fin 1) o)).trans ?_
  exact shapeCast_a_1a_apply _ shapeCasts_S128_S1x128 0 o

/-! ## The bridge -/

/-- The output array re-laid as 50000 × 4 × 128 is the specification's array of the four states. -/
theorem rows_eq_spec (c : Dev nD) :
    shapeCast S50000x4x128 (outRows (V m c (Pipeline.arrRef spec0 0)) (V m c (Pipeline.arrRef spec0 1)) (V m c (Pipeline.arrRef spec0 2))) shapeCasts_S200000x128_S50000x4x128 = (ChebSpec.outArr (state0 m c) (state1 m c) (state2 m c) (state3 m c) (m ((c : Thread nD τ).loc main_arg4)) (m ((c : Thread nD τ).loc main_arg5))) := by
  exact rows_spec _ _ _ _ _ _ _ _ _ (stack_vb0 m c) (stack_vb1 m c)
    (stack_vb2 m c) (stack_vb3 m c)
    (fun k i o => congrFun (weight_eq m c) (ix3 k i o)) (fun o => biasRow_apply m c o)

/-! ## The run, with the result named -/

/-- Every weakly fair execution of the idealized kernel's @main terminates without a fault with the result buffer at
    the transposed specification array of the four states, and the six arguments unchanged. -/
theorem run_value : θ_run defs (onTc (τ := τ) (main (F := Ideal))) ⟨m, fun _ => 0, ρ⟩ (fun r => ∀ c : Dev nD,
      r.2.mem ((c.tc : Thread nD τ).loc main_v56) = transpose S4x128x50000 [1, 2, 0] (ChebSpec.outArr (state0 m c) (state1 m c) (state2 m c) (state3 m c) (m ((c : Thread nD τ).loc main_arg4)) (m ((c : Thread nD τ).loc main_arg5))) transposes_S50000x4x128_S4x128x50000_1_2_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v56 (Pipeline.mem_restRefs_of main_v56 (by decide) (by decide))).trans
        ((result_tail m c).trans (congrArg (fun x => transpose S4x128x50000 [1, 2, 0] x transposes_S50000x4x128_S4x128x50000_1_2_0) (rows_eq_spec m c))),
      ((h c).2 main_arg0 (Pipeline.mem_restRefs_of main_arg0 (by decide) (by decide))).trans (tail_main_arg0 m (dats m) c),
      ((h c).2 main_arg1 (Pipeline.mem_restRefs_of main_arg1 (by decide) (by decide))).trans (tail_main_arg1 m (dats m) c),
      ((h c).2 main_arg2 (Pipeline.mem_restRefs_of main_arg2 (by decide) (by decide))).trans (tail_main_arg2 m (dats m) c),
      ((h c).2 main_arg3 (Pipeline.mem_restRefs_of main_arg3 (by decide) (by decide))).trans (tail_main_arg3 m (dats m) c),
      ((h c).1 1).trans ((((dats m) 0 c).arrAt_in 1 rfl _).trans ((A_eq m c 1).trans (V_main_arg4 m c))),
      ((h c).2 main_arg5 (Pipeline.mem_restRefs_of main_arg5 (by decide) (by decide))).trans (tail_main_arg5 m (dats m) c)⟩)
    (run_main m ρ)

end Cert.KernelIdeal.Around

end
-- ==== Proof.RefSide.lean ====
/-
  The reference program read against the specification.

  The reference re-lays each state as vertices × batch × channels, multiplies it by the matching 64 × 128 slice of
  the weight (a contraction over the channel axis), adds the four products from the left, and adds the bias
  broadcast over vertices and batch. Read at an index (v, b, o), each product is the specification's term of that
  order — re-laying a 50000 × 256 row as 4 × 64 sends (v, b, i) to column b·64 + i, and slice k of the weight read
  at (i, o) is W[k, i, o] — so the sum is the specification's output entry.
-/
import proofs.«136015_j54451595379259_1_alg».proof.Proof.Gen.ReferenceIdeal.Run
import proofs.«136015_j54451595379259_1_alg».proof.Proof.Gen.ReferenceIdeal.Read
import proofs.«136015_j54451595379259_1_alg».proof.Proof.ChebSpec
import Idealize.ShloMosaic.Lib.ValueIdx
import Idealize.ShloMosaic.Lib.Pipeline.Value
import Idealize.ShloMosaic.PureOps.Ideal.Laws

set_option maxRecDepth 8192

noncomputable section

open scoped BigOperators

namespace Cert.ReferenceIdeal.RefSide

open Idealize.ShloMosaic Idealize.ShloMosaic.ValueIdx Cert.ReferenceIdeal Cert.ReferenceIdeal.Read

/-- The reference's order-0 product at (v, b, o) is the specification's order-0 term of the re-laid input. -/
theorem term0 (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (v : Fin 50000) (b : Fin 4) (o : Fin 128) :
    val_main_v5 (F := Ideal) a0 a4 (ix3 v b o) = ChebSpec.term (val_main_v1 (F := Ideal) a0) a4 0 v b o := by
  rw [val_main_v5_apply]
  unfold ChebSpec.term
  refine Finset.sum_congr rfl fun i _ => ?_
  rw [val_main_v4_apply, val_main_v3_apply, val_main_v2_apply]
  have hv := v.isLt; have hb := b.isLt; have hi := i.isLt; have ho := o.isLt
  have e1 : idx_main_v4 (lidx_main_v5 (ix3 v b o) i) = ix2 v (ChebSpec.col b i) := funext fun a => Fin.ext (by
    match a with
    | ⟨0, _⟩ => show ((v.val * 4 + b.val) * 64 + i.val) / 256 = v.val; omega
    | ⟨1, _⟩ => show ((v.val * 4 + b.val) * 64 + i.val) % 256 = b.val * 64 + i.val; omega)
  have e2 : idx_main_v2 (idx_main_v3 (ridx_main_v5 (ix3 v b o) i)) = ix3 (0 : Fin 4) i o := funext fun a => Fin.ext (by
    match a with
    | ⟨0, _⟩ => rfl
    | ⟨1, _⟩ => show (i.val * 128 + o.val) / 128 % 64 = i.val; omega
    | ⟨2, _⟩ => show (i.val * 128 + o.val) % 128 = o.val; omega)
  rw [e1, e2]

/-- The reference's order-1 product at (v, b, o) is the specification's order-1 term of state 1. -/
theorem term1 (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (v : Fin 50000) (b : Fin 4) (o : Fin 128) :
    val_main_v22 (F := Ideal) a0 a1 a2 a3 a4 (ix3 v b o) = ChebSpec.term (val_main_v18 (F := Ideal) a0 a1 a2 a3) a4 1 v b o := by
  rw [val_main_v22_apply]
  unfold ChebSpec.term
  refine Finset.sum_congr rfl fun i _ => ?_
  rw [val_main_v21_apply, val_main_v20_apply, val_main_v19_apply]
  have hv := v.isLt; have hb := b.isLt; have hi := i.isLt; have ho := o.isLt
  have e1 : idx_main_v21 (lidx_main_v22 (ix3 v b o) i) = ix2 v (ChebSpec.col b i) := funext fun a => Fin.ext (by
    match a with
    | ⟨0, _⟩ => show ((v.val * 4 + b.val) * 64 + i.val) / 256 = v.val; omega
    | ⟨1, _⟩ => show ((v.val * 4 + b.val) * 64 + i.val) % 256 = b.val * 64 + i.val; omega)
  have e2 : idx_main_v19 (idx_main_v20 (ridx_main_v22 (ix3 v b o) i)) = ix3 (1 : Fin 4) i o := funext fun a => Fin.ext (by
    match a with
    | ⟨0, _⟩ => rfl
    | ⟨1, _⟩ => show (i.val * 128 + o.val) / 128 % 64 = i.val; omega
    | ⟨2, _⟩ => show (i.val * 128 + o.val) % 128 = o.val; omega)
  rw [e1, e2]

/-- The reference's order-2 product at (v, b, o) is the specification's order-2 term of state 2. -/
theorem term2 (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (v : Fin 50000) (b : Fin 4) (o : Fin 128) :
    val_main_v43 (F := Ideal) a0 a1 a2 a3 a4 (ix3 v b o) = ChebSpec.term (val_main_v39 (F := Ideal) a0 a1 a2 a3) a4 2 v b o := by
  rw [val_main_v43_apply]
  unfold ChebSpec.term
  refine Finset.sum_congr rfl fun i _ => ?_
  rw [val_main_v42_apply, val_main_v41_apply, val_main_v40_apply]
  have hv := v.isLt; have hb := b.isLt; have hi := i.isLt; have ho := o.isLt
  have e1 : idx_main_v42 (lidx_main_v43 (ix3 v b o) i) = ix2 v (ChebSpec.col b i) := funext fun a => Fin.ext (by
    match a with
    | ⟨0, _⟩ => show ((v.val * 4 + b.val) * 64 + i.val) / 256 = v.val; omega
    | ⟨1, _⟩ => show ((v.val * 4 + b.val) * 64 + i.val) % 256 = b.val * 64 + i.val; omega)
  have e2 : idx_main_v40 (idx_main_v41 (ridx_main_v43 (ix3 v b o) i)) = ix3 (2 : Fin 4) i o := funext fun a => Fin.ext (by
    match a with
    | ⟨0, _⟩ => rfl
    | ⟨1, _⟩ => show (i.val * 128 + o.val) / 128 % 64 = i.val; omega
    | ⟨2, _⟩ => show (i.val * 128 + o.val) % 128 = o.val; omega)
  rw [e1, e2]

/-- The reference's order-3 product at (v, b, o) is the specification's order-3 term of state 3. -/
theorem term3 (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (v : Fin 50000) (b : Fin 4) (o : Fin 128) :
    val_main_v64 (F := Ideal) a0 a1 a2 a3 a4 (ix3 v b o) = ChebSpec.term (val_main_v60 (F := Ideal) a0 a1 a2 a3) a4 3 v b o := by
  rw [val_main_v64_apply]
  unfold ChebSpec.term
  refine Finset.sum_congr rfl fun i _ => ?_
  rw [val_main_v63_apply, val_main_v62_apply, val_main_v61_apply]
  have hv := v.isLt; have hb := b.isLt; have hi := i.isLt; have ho := o.isLt
  have e1 : idx_main_v63 (lidx_main_v64 (ix3 v b o) i) = ix2 v (ChebSpec.col b i) := funext fun a => Fin.ext (by
    match a with
    | ⟨0, _⟩ => show ((v.val * 4 + b.val) * 64 + i.val) / 256 = v.val; omega
    | ⟨1, _⟩ => show ((v.val * 4 + b.val) * 64 + i.val) % 256 = b.val * 64 + i.val; omega)
  have e2 : idx_main_v61 (idx_main_v62 (ridx_main_v64 (ix3 v b o) i)) = ix3 (3 : Fin 4) i o := funext fun a => Fin.ext (by
    match a with
    | ⟨0, _⟩ => rfl
    | ⟨1, _⟩ => show (i.val * 128 + o.val) / 128 % 64 = i.val; omega
    | ⟨2, _⟩ => show (i.val * 128 + o.val) % 128 = o.val; omega)
  rw [e1, e2]

/-- The reference's result before its last transposition, at (v, b, o), is the specification's output entry of
    the four states it builds. -/
theorem sum_apply (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (a5 : (⟨S128, .f32⟩ : BufTy).Contents (Elt Ideal)) (v : Fin 50000) (b : Fin 4) (o : Fin 128) :
    val_main_v68 (F := Ideal) a0 a1 a2 a3 a4 a5 (ix3 v b o)
      = ChebSpec.out (val_main_v1 (F := Ideal) a0) (val_main_v18 (F := Ideal) a0 a1 a2 a3) (val_main_v39 (F := Ideal) a0 a1 a2 a3)
          (val_main_v60 (F := Ideal) a0 a1 a2 a3) a4 a5 v b o := by
  rw [val_main_v68_apply, val_main_v65_apply, val_main_v44_apply, val_main_v23_apply,
    term0 a0 a1 a2 a3 a4, term1, term2, term3, val_main_v67_apply, val_main_v66_apply]
  have e : idx_main_v66 (idx_main_v67 (ix3 v b o)) = ix1 o := funext fun a => Fin.ext (by
    match a with
    | ⟨0, _⟩ => rfl)
  rw [e]
  rfl

/-- As arrays: the reference's result before the transposition is the specification's array. -/
theorem sum_eq (a0 : (⟨S4x64x50000, .f32⟩ : BufTy).Contents (Elt Ideal)) (a1 a2 : (⟨S800000, .i32⟩ : BufTy).Contents (Elt Ideal))
    (a3 : (⟨S800000, .f32⟩ : BufTy).Contents (Elt Ideal)) (a4 : (⟨S4x64x128, .f32⟩ : BufTy).Contents (Elt Ideal))
    (a5 : (⟨S128, .f32⟩ : BufTy).Contents (Elt Ideal)) :
    val_main_v68 (F := Ideal) a0 a1 a2 a3 a4 a5
      = ChebSpec.outArr (val_main_v1 (F := Ideal) a0) (val_main_v18 (F := Ideal) a0 a1 a2 a3) (val_main_v39 (F := Ideal) a0 a1 a2 a3)
          (val_main_v60 (F := Ideal) a0 a1 a2 a3) a4 a5 := by
  funext j
  rw [eq_ix3 j]
  exact sum_apply a0 a1 a2 a3 a4 a5 (j 0) (j 1) (j 2)

end Cert.ReferenceIdeal.RefSide

end
-- ==== Proof.lean ====
/-
  Two programs for one graph convolution: a Chebyshev filter of order four over a sparse graph operator given by
  its entries (row indices, column indices, values), applied to an input of 4 batch entries × 64 channels × 50000
  vertices, with a weight of 4 × 64 × 128 and a bias of 128.

  Both build the same four states X₀ … X₃ of the input (X₀ the input re-laid as vertices × (batch·channels),
  X₁ = L·X₀, X₂ = 2·L·X₁ − X₀, X₃ = 2·L·X₂ − X₁, the product with L a gather by the column indices, a scaling by the
  values and a sum into the rows the row indices name). The kernel stacks the states and contracts the stack with the
  weight in one pass over twenty-five blocks of 8000 rows, adding the four products onto a zero block and then the
  bias; the reference contracts state by state and adds the four results and the bias. At the ideal values (floats
  extended reals, format changes the identity, a matrix product the textbook sum) both results are, at batch entry
  b, output channel o and vertex v,

      Σᵢ X₀[v,b·64+i]·W[0,i,o] + Σᵢ X₁[…]·W[1,i,o] + Σᵢ X₂[…]·W[2,i,o] + Σᵢ X₃[…]·W[3,i,o] + bias[o]

  with the additions in this order on both sides (the kernel's leading zero vanishes), so the two are equal with no
  appeal to finiteness.

  The frames: the kernel's @main is sixty-five host operations, the contraction kernel's region and two host
  operations; the region's body reads its three input blocks, computes, and overwrites its whole output block, so
  the pipeline library's launch theorem runs it (once for the program read at the machine's words, once at the
  ideal values, from one text); the reference is host operations only. The idealization rewrote nothing, so that
  conjunct is trivial.
-/
import proofs.«136015_j54451595379259_1_alg».proof.Defs
import proofs.«136015_j54451595379259_1_alg».proof.Proof.Gen.Kernel
import proofs.«136015_j54451595379259_1_alg».proof.Proof.Gen.KernelIdeal
import proofs.«136015_j54451595379259_1_alg».proof.Proof.Gen.ReferenceIdeal
import proofs.«136015_j54451595379259_1_alg».proof.Proof.Gen.Pre_finite_inputs
import proofs.«136015_j54451595379259_1_alg».proof.Proof.Gen.ReferenceIdeal.Run
import proofs.«136015_j54451595379259_1_alg».proof.Proof.Gen.ReferenceIdeal.Read
import proofs.«136015_j54451595379259_1_alg».proof.Proof.KWordBody
import proofs.«136015_j54451595379259_1_alg».proof.Proof.KIdealValue
import proofs.«136015_j54451595379259_1_alg».proof.Proof.RefSide
import Idealize.ShloMosaic.Adequacy
import Idealize.ShloMosaic.Init

set_option maxRecDepth 16384

noncomputable section

namespace Cert.Proof

open Idealize.ShloMosaic Idealize.SL.Sem

/-- The kernel, read at the machine's words, runs to its end without a fault and leaves its arguments alone. -/
theorem frame_k : Cert.frame_Kernel (hKernel := Cert.Kernel.Gen.facts) (hPre_finite_inputs := Cert.Pre_finite_inputs.Gen.facts) :=
  fun m ρ _ => Cert.Kernel.Around.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Around.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result, from memories that agree with the kernel's on the arguments, is the kernel's: the
    transposed specification array of the same four states. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1)) = m ((c.tc : Thread Cert.KernelIdeal.nD Cert.KernelIdeal.τ).loc Cert.KernelIdeal.main_arg1))
    (h2 : (m' ((c.tc : Thread Cert.ReferenceIdeal.nD Cert.ReferenceIdeal.τ).loc Cert.ReferenceIdeal.main_arg2)) = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3)) = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4)) = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5)) = m ((c.tc : Thread Cert.KernelIdeal.nD Cert.KernelIdeal.τ).loc Cert.KernelIdeal.main_arg5)) :
    Cert.ReferenceIdeal.Value.res_main_v69 m' c
      = transpose Cert.KernelIdeal.S4x128x50000 [1, 2, 0]
          (ChebSpec.outArr (Cert.KernelIdeal.Around.state0 m c) (Cert.KernelIdeal.Around.state1 m c) (Cert.KernelIdeal.Around.state2 m c)
            (Cert.KernelIdeal.Around.state3 m c)
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5)))
          Cert.KernelIdeal.Gen.transposes_S50000x4x128_S4x128x50000_1_2_0 := by
  rw [Cert.ReferenceIdeal.Read.val_main_v69_eq, h0, h1, h2, h3, h4, h5]
  unfold Cert.ReferenceIdeal.Read.val_main_v69
  rw [Cert.ReferenceIdeal.RefSide.sum_eq]
  unfold Cert.KernelIdeal.Around.state0 Cert.KernelIdeal.Around.state1 Cert.KernelIdeal.Around.state2 Cert.KernelIdeal.Around.state3
  rfl

/-- At the ideal values the two programs, run from memories that agree on the arguments, both run to their ends and
    end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Around.run_value m ρ, ?_⟩
  refine (θ_run Cert.ReferenceIdeal.defs _ _).mono (fun _ h c => ⟨(h c).1.trans ?_, (h c).2⟩) (Cert.ReferenceIdeal.Value.run (F := Ideal) m' ρ')
  exact ref_result m m' c (hagree c).1 (hagree c).2.1 (hagree c).2.2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
